-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel

variable [Facts]

def fn {F : FTy → Type} [FloatOps F] (main_arg0 : FVec F S512x4096 .f32) (main_arg1 : FVec F S512x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Kernel.lean ====
abbrev S512x4096 : Shape := ⟨2, ![512, 4096]⟩
abbrev S16x128 : Shape := ⟨2, ![16, 128]⟩
abbrev S256x2048 : Shape := ⟨2, ![256, 2048]⟩
abbrev S512x2048 : Shape := ⟨2, ![512, 2048]⟩
abbrev S8x128 : Shape := ⟨2, ![8, 128]⟩
abbrev S256x512 : Shape := ⟨2, ![256, 512]⟩
abbrev S256x1 : Shape := ⟨2, ![256, 1]⟩
abbrev S512x1 : Shape := ⟨2, ![512, 1]⟩
abbrev S256 : Shape := ⟨1, ![256]⟩
abbrev S512 : Shape := ⟨1, ![512]⟩
abbrev S1x512 : Shape := ⟨2, ![1, 512]⟩
abbrev S1x256x512 : Shape := ⟨3, ![1, 256, 512]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S8x128, .f32⟩
  | .local _ .vmem, ⟨5, _⟩ => ⟨S8x128, .f32⟩
  | .local _ .vmem, ⟨6, _⟩ => ⟨S256x512, .f32⟩
  | .local _ .vmem, ⟨7, _⟩ => ⟨S256x1, .f32⟩
  | .local _ .vmem, ⟨8, _⟩ => ⟨S512x1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S256x2048_S256x2048_0_0 : ∀ a, (![0, 0] : Fin 2 → Nat) a + S256x2048.size a ≤ S256x2048.size a
  h_S256x2048 : 0 < S256x2048.numel
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  reduces_S256x2048_S256 : S256x2048.Reduces [1] S256
  shapeCasts_S256_S256x1 : S256.ShapeCasts S256x1
  reduces_S512x2048_S512 : S512x2048.Reduces [1] S512
  shapeCasts_S512_S512x1 : S512.ShapeCasts S512x1
  transposes_S512x1_p1_0_S1x512 : S512x1.Transposes [1, 0] S1x512
  broadcasts_S256x1_S256x512 : S256x1.Broadcasts S256x512
  broadcasts_S1x512_S256x512 : S1x512.Broadcasts S256x512
  natLt_1_32 : 1 < 32
  iota_S256x512_d0_w32 : S256x512.Iotas .tc 32 [0]
  iota_S256x512_d1_w32 : S256x512.Iotas .tc 32 [1]
  reduces_S256x512_S256 : S256x512.Reduces [1] S256
  shapeCasts_S256x512_S1x256x512 : S256x512.ShapeCasts S1x256x512
  reduces_S1x256x512_S1 : S1x256x512.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_0_1 : S16x128.Slices ![0, 1] S1x1
  slices_S16x128_S1x1_8_0 : S16x128.Slices ![8, 0] S1x1
  slices_S16x128_S1x1_8_1 : S16x128.Slices ![8, 1] S1x1
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S512x4096.size a
  hwx0_0 : ∀ i : grid0.Coords, EltTy.bits .f32 = 32 ∨ (Rect.block (s := S512x4096) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x4096.size a
  hwx0_1 : ∀ i : grid0.Coords, EltTy.bits .f32 = 32 ∨ (Rect.block (s := S512x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x4096 : Shape := ⟨2, ![512, 4096]⟩
abbrev S4096x512 : Shape := ⟨2, ![4096, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 69
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S4096x512, .f32⟩
  | .hbm, ⟨3, _⟩ => ⟨S512x512, .f32⟩
  | .hbm, ⟨4, _⟩ => ⟨S512x4096, .f32⟩
  | .hbm, ⟨5, _⟩ => ⟨S_, .f32⟩
  | .hbm, ⟨6, _⟩ => ⟨S512, .f32⟩
  | .hbm, ⟨7, _⟩ => ⟨S512x4096, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S1x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .i1⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512x1, .f32⟩
  | .hbm, ⟨36, _⟩ => ⟨S512x1x512, .f32⟩
  | .hbm, ⟨37, _⟩ => ⟨S512x512x512, .f32⟩
  | .hbm, ⟨38, _⟩ => ⟨S512x512x512, .f32⟩
  | .hbm, ⟨39, _⟩ => ⟨S512x512x512, .f32⟩
  | .hbm, ⟨40, _⟩ => ⟨S512, .i32⟩
  | .hbm, ⟨41, _⟩ => ⟨S512x1, .i32⟩
  | .hbm, ⟨42, _⟩ => ⟨S1x512, .i32⟩
  | .hbm, ⟨43, _⟩ => ⟨S512x512, .i32⟩
  | .hbm, ⟨44, _⟩ => ⟨S512x512, .i32⟩
  | .hbm, ⟨45, _⟩ => ⟨S512x512, .i1⟩
  | .hbm, ⟨46, _⟩ => ⟨S512x512x1, .i1⟩
  | .hbm, ⟨47, _⟩ => ⟨S512x1x512, .i1⟩
  | .hbm, ⟨48, _⟩ => ⟨S512x1x512, .i1⟩
  | .hbm, ⟨49, _⟩ => ⟨S512x512x512, .i1⟩
  | .hbm, ⟨50, _⟩ => ⟨S512x512x512, .i1⟩
  | .hbm, ⟨51, _⟩ => ⟨S512x512x512, .i1⟩
  | .hbm, ⟨52, _⟩ => ⟨S512x512x512, .f32⟩
  | .hbm, ⟨53, _⟩ => ⟨S512x512x512, .f32⟩
  | .hbm, ⟨54, _⟩ => ⟨S_, .f32⟩
  | .hbm, ⟨55, _⟩ => ⟨S512x512x512, .f32⟩
  | .hbm, ⟨56, _⟩ => ⟨S512x512x512, .f32⟩
  | .hbm, ⟨57, _⟩ => ⟨S_, .f32⟩
  | .hbm, ⟨58, _⟩ => ⟨S512x512x512, .f32⟩
  | .hbm, ⟨59, _⟩ => ⟨S512x512x512, .i1⟩
  | .hbm, ⟨60, _⟩ => ⟨S512x512x512, .i32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_call0_cst : Ref sig .tc := ⟨.hbm, 54, rfl⟩
abbrev main_call0_v0 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]

class Facts₀ : Prop where
  transposes_S512x4096_S4096x512_1_0 : S512x4096.Transposes [1, 0] S4096x512
  reducesTo_S512x4096_S512_d1 : S512x4096.ReducesTo [1] S512
  h_S_ : 0 < S_.numel
  bcast_S512_S512x1_0 : S512.BroadcastsInDim S512x1 (![0] : Fin 1 → Fin S512x1.rank)
  bcast_S_S512x512 : S_.BroadcastsInDim S512x512 (![] : Fin 0 → Fin S512x512.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  natLt_1_32 : 1 < 32
  reducesTo_S512x512x512_S_d0_1_2 : S512x512x512.ReducesTo [0, 1, 2] S_
  dot_S512x4096_S4096x512_S512x512_1_0_0_1_n_n_wf : DotDims.WF S512x4096 S4096x512 S512x512 [1] [0] [0] [1] [] []

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

class Facts : Prop extends Facts₀ where

variable [Facts]
-- ==== Proof.KernelPieces.lean ====
/-
  What each control case of the kernel body leaves behind, as pure terms of what it was given.

  At a grid point (i, k) the body sees its block of the anchors `x0` (256 × 2048), its block of the positives
  `x1` (512 × 2048) and three accumulators: the partial products (256 × 512), the anchors' partial sums of squares
  (256 × 1) and the positives' (512 × 1). At k = 0 it clears the accumulators and adds the block's contribution; at
  k = 1 it adds the block's contribution to what k = 0 left and then writes the output block from the completed
  accumulators. The generated payloads name the arithmetic: `k0_pay4/5/6` the cleared accumulators,
  `k0_pay7/8/9` one block's contribution added to an accumulator, `k0_pay2` the table of hinges, `k0_pay3` their
  sum and `k0_pay1` the output block.
-/
import proofs.«142533_j54082228191620_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The offset of a whole-buffer rectangle of rank 2. -/
theorem hz2 : (![0, 0] : Fin 2 → Nat) = fun _ => 0 := by
  funext a; match a with | ⟨0, _⟩ => rfl | ⟨1, _⟩ => rfl

/-! ## The first point of a row half: the accumulators are cleared, then the block is added -/

/-- The products' accumulator after k = 0: the block's products added to zero. -/
theorem first_dot (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S8x128 .f32) (harg4 : arg4.IsWhole) (arg5 : Memref sig .tc .vmem S256x512 .f32) (harg5 : arg5.IsWhole) (arg6 : Memref sig .tc .vmem S256x1 .f32) (harg6 : arg6.IsWhole) (arg7 : Memref sig .tc .vmem S512x1 .f32) (harg7 : arg7.IsWhole) (hc0 : cond0_0 i) (hc1 : ¬cond0_1 i)
    (x0 : Vec F S256x2048 .f32) (x1 : Vec F S512x2048 .f32) :
    sout0_A_0 (F := F) c i arg2 harg2 arg3 harg3 arg4 harg4 arg5 harg5 arg6 harg6 arg7 harg7 hc0 hc1 x0 x1 = k0_pay7 x0 x1 (k0_pay4 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero hz2, View.readCov_unit_zero _ hz2]
  simp only [View.readAt_eq_ld, harg2.read_unread, harg3.read_unread, harg4.read_unread, harg5.read_unread, harg6.read_unread, harg7.read_unread, View.ld_unit_zero (S := S256x2048) hz2, View.ld_unit_zero (S := S512x2048) hz2, View.ld_unit_zero (S := S256x512) hz2, View.ld_unit_zero (S := S256x1) hz2, View.ld_unit_zero (S := S512x1) hz2, View.ld_unit_zero (S := S8x128) hz2]

/-- The anchors' sums of squares after k = 0. -/
theorem first_sqa (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S8x128 .f32) (harg4 : arg4.IsWhole) (arg5 : Memref sig .tc .vmem S256x512 .f32) (harg5 : arg5.IsWhole) (arg6 : Memref sig .tc .vmem S256x1 .f32) (harg6 : arg6.IsWhole) (arg7 : Memref sig .tc .vmem S512x1 .f32) (harg7 : arg7.IsWhole) (hc0 : cond0_0 i) (hc1 : ¬cond0_1 i)
    (x0 : Vec F S256x2048 .f32) (x1 : Vec F S512x2048 .f32) :
    sout0_A_1 (F := F) c i arg2 harg2 arg3 harg3 arg4 harg4 arg5 harg5 arg6 harg6 arg7 harg7 hc0 hc1 x0 x1 = k0_pay8 x0 (k0_pay5 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero hz2, View.readCov_unit_zero _ hz2]
  simp only [View.readAt_eq_ld, harg2.read_unread, harg3.read_unread, harg4.read_unread, harg5.read_unread, harg6.read_unread, harg7.read_unread, View.ld_unit_zero (S := S256x2048) hz2, View.ld_unit_zero (S := S512x2048) hz2, View.ld_unit_zero (S := S256x512) hz2, View.ld_unit_zero (S := S256x1) hz2, View.ld_unit_zero (S := S512x1) hz2, View.ld_unit_zero (S := S8x128) hz2]

/-- The positives' sums of squares after k = 0. -/
theorem first_sqp (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S8x128 .f32) (harg4 : arg4.IsWhole) (arg5 : Memref sig .tc .vmem S256x512 .f32) (harg5 : arg5.IsWhole) (arg6 : Memref sig .tc .vmem S256x1 .f32) (harg6 : arg6.IsWhole) (arg7 : Memref sig .tc .vmem S512x1 .f32) (harg7 : arg7.IsWhole) (hc0 : cond0_0 i) (hc1 : ¬cond0_1 i)
    (x0 : Vec F S256x2048 .f32) (x1 : Vec F S512x2048 .f32) :
    sout0_A_2 (F := F) c i arg2 harg2 arg3 harg3 arg4 harg4 arg5 harg5 arg6 harg6 arg7 harg7 hc0 hc1 x0 x1 = k0_pay9 x1 (k0_pay6 (F := F)) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero hz2, View.readCov_unit_zero _ hz2]
  simp only [View.readAt_eq_ld, harg2.read_unread, harg3.read_unread, harg4.read_unread, harg5.read_unread, harg6.read_unread, harg7.read_unread, View.ld_unit_zero (S := S256x2048) hz2, View.ld_unit_zero (S := S512x2048) hz2, View.ld_unit_zero (S := S256x512) hz2, View.ld_unit_zero (S := S256x1) hz2, View.ld_unit_zero (S := S512x1) hz2, View.ld_unit_zero (S := S8x128) hz2]

/-! ## The second point: the block is added to what the first left, and the output block is written -/

/-- The products' accumulator after k = 1. -/
theorem second_dot (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S8x128 .f32) (harg4 : arg4.IsWhole) (arg5 : Memref sig .tc .vmem S256x512 .f32) (harg5 : arg5.IsWhole) (arg6 : Memref sig .tc .vmem S256x1 .f32) (harg6 : arg6.IsWhole) (arg7 : Memref sig .tc .vmem S512x1 .f32) (harg7 : arg7.IsWhole) (hc0 : ¬cond0_0 i) (hc1 : cond0_1 i)
    (x0 : Vec F S256x2048 .f32) (x1 : Vec F S512x2048 .f32) (xs0 : Vec F S256x512 .f32) (xs1 : Vec F S256x1 .f32) (xs2 : Vec F S512x1 .f32) :
    sout0_B_0 (F := F) c i arg2 harg2 arg3 harg3 arg4 harg4 arg5 harg5 arg6 harg6 arg7 harg7 hc0 hc1 x0 x1 xs0 xs1 xs2 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S256x2048) hz2, View.ld_unit_zero (S := S512x2048) hz2, View.ld_unit_zero (S := S256x512) hz2, View.ld_unit_zero (S := S256x1) hz2, View.ld_unit_zero (S := S512x1) hz2, View.ld_unit_zero (S := S8x128) hz2]

/-- The anchors' sums of squares after k = 1. -/
theorem second_sqa (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S8x128 .f32) (harg4 : arg4.IsWhole) (arg5 : Memref sig .tc .vmem S256x512 .f32) (harg5 : arg5.IsWhole) (arg6 : Memref sig .tc .vmem S256x1 .f32) (harg6 : arg6.IsWhole) (arg7 : Memref sig .tc .vmem S512x1 .f32) (harg7 : arg7.IsWhole) (hc0 : ¬cond0_0 i) (hc1 : cond0_1 i)
    (x0 : Vec F S256x2048 .f32) (x1 : Vec F S512x2048 .f32) (xs0 : Vec F S256x512 .f32) (xs1 : Vec F S256x1 .f32) (xs2 : Vec F S512x1 .f32) :
    sout0_B_1 (F := F) c i arg2 harg2 arg3 harg3 arg4 harg4 arg5 harg5 arg6 harg6 arg7 harg7 hc0 hc1 x0 x1 xs0 xs1 xs2 = k0_pay8 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S256x2048) hz2, View.ld_unit_zero (S := S512x2048) hz2, View.ld_unit_zero (S := S256x512) hz2, View.ld_unit_zero (S := S256x1) hz2, View.ld_unit_zero (S := S512x1) hz2, View.ld_unit_zero (S := S8x128) hz2]

/-- The positives' sums of squares after k = 1. -/
theorem second_sqp (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S8x128 .f32) (harg4 : arg4.IsWhole) (arg5 : Memref sig .tc .vmem S256x512 .f32) (harg5 : arg5.IsWhole) (arg6 : Memref sig .tc .vmem S256x1 .f32) (harg6 : arg6.IsWhole) (arg7 : Memref sig .tc .vmem S512x1 .f32) (harg7 : arg7.IsWhole) (hc0 : ¬cond0_0 i) (hc1 : cond0_1 i)
    (x0 : Vec F S256x2048 .f32) (x1 : Vec F S512x2048 .f32) (xs0 : Vec F S256x512 .f32) (xs1 : Vec F S256x1 .f32) (xs2 : Vec F S512x1 .f32) :
    sout0_B_2 (F := F) c i arg2 harg2 arg3 harg3 arg4 harg4 arg5 harg5 arg6 harg6 arg7 harg7 hc0 hc1 x0 x1 xs0 xs1 xs2 = k0_pay9 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S256x2048) hz2, View.ld_unit_zero (S := S512x2048) hz2, View.ld_unit_zero (S := S256x512) hz2, View.ld_unit_zero (S := S256x1) hz2, View.ld_unit_zero (S := S512x1) hz2, View.ld_unit_zero (S := S8x128) hz2]

/-- The output block written at k = 1: the hinges' sum and count, from the completed accumulators. -/
theorem second_out (c : Dev nD) (i : grid0.Coords) (arg2 : Memref sig .tc .vmem S256x2048 .f32) (harg2 : arg2.IsWhole) (arg3 : Memref sig .tc .vmem S512x2048 .f32) (harg3 : arg3.IsWhole) (arg4 : Memref sig .tc .vmem S8x128 .f32) (harg4 : arg4.IsWhole) (arg5 : Memref sig .tc .vmem S256x512 .f32) (harg5 : arg5.IsWhole) (arg6 : Memref sig .tc .vmem S256x1 .f32) (harg6 : arg6.IsWhole) (arg7 : Memref sig .tc .vmem S512x1 .f32) (harg7 : arg7.IsWhole) (hc0 : ¬cond0_0 i) (hc1 : cond0_1 i)
    (x0 : Vec F S256x2048 .f32) (x1 : Vec F S512x2048 .f32) (xs0 : Vec F S256x512 .f32) (xs1 : Vec F S256x1 .f32) (xs2 : Vec F S512x1 .f32) :
    out0_B_2 (F := F) c i arg2 harg2 arg3 harg3 arg4 harg4 arg5 harg5 arg6 harg6 arg7 harg7 hc0 hc1 x0 x1 xs0 xs1 xs2
      = k0_pay1 (k0_pay2 (BitVec.ofNat 32 (i 0).val) (k0_pay8 x0 xs1) (k0_pay9 x1 xs2) (k0_pay7 x0 x1 xs0))
          (k0_pay3 (BitVec.ofNat 32 (i 0).val) (k0_pay8 x0 xs1) (k0_pay9 x1 xs2) (k0_pay7 x0 x1 xs0)) := by
  unfold out0_B_2
  rw [View.read_writes_eq_canon _ _ _ (cover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  rw [View.readCov_unit_zero (S := S256x1) arg6.view hz2, View.readCov_unit_zero (S := S512x1) arg7.view hz2,
    View.readCov_unit_zero (S := S256x512) arg5.view hz2]
  simp only [View.readAt_eq_ld, harg2.read_unread, harg3.read_unread, harg4.read_unread, harg5.read_unread, harg6.read_unread, harg7.read_unread, View.ld_unit_zero (S := S256x2048) hz2, View.ld_unit_zero (S := S512x2048) hz2, View.ld_unit_zero (S := S256x512) hz2, View.ld_unit_zero (S := S256x1) hz2, View.ld_unit_zero (S := S512x1) hz2, View.ld_unit_zero (S := S8x128) hz2]

end Cert.KernelIdeal.Pieces

end
-- ==== Proof.KernelBlock.lean ====
/-
  One row half's output block as a term of the four input blocks it is computed from.

  The grid is 2 × 2: the first coordinate `h` picks 256 anchor rows, the second splits the 4096 columns in two.
  For a fixed `h` the body runs twice, on the column halves in turn, accumulating the products, the anchors' sums of
  squares and the positives' sums of squares; after the second half it turns the three accumulators into the table of
  hinges of those 256 anchors against all 512 positives, and writes the hinges' sum at entry (0, 0) and the count of
  hinges above ε at entry (0, 1) of an 8 × 128 block that is zero elsewhere.
-/
import proofs.«142533_j54082228191620_2_alg».proof.Proof.Gen.KernelIdeal.Skeleton

noncomputable section

namespace Cert.KernelIdeal.Block

open Cert.KernelIdeal Cert.KernelIdeal.Gen Idealize.ShloMosaic

variable {F : FTy → Type} [FloatOps F]

/-- Row `r` of row half `h`, as a row of the whole 512-row table. -/
def row (h : Fin 2) (r : Fin 256) : Fin 512 := ⟨256 * h.val + r.val, by have := h.isLt; have := r.isLt; omega⟩

/-- Column `k` of the first column half, as a column of the whole table. -/
def colLo (k : Fin 2048) : Fin 4096 := ⟨k.val, by have := k.isLt; omega⟩

/-- Column `k` of the second column half. -/
def colHi (k : Fin 2048) : Fin 4096 := ⟨2048 + k.val, by have := k.isLt; omega⟩

/-- The products accumulated over the two column halves, from zero. -/
def accDot (xa0 xa1 : Vec F S256x2048 .f32) (xp0 xp1 : Vec F S512x2048 .f32) : FVec F S256x512 .f32 :=
  k0_pay7 xa1 xp1 (k0_pay7 xa0 xp0 (k0_pay4 (F := F)))

/-- The anchors' sums of squares accumulated over the two column halves, from zero. -/
def accSqa (xa0 xa1 : Vec F S256x2048 .f32) : FVec F S256x1 .f32 :=
  k0_pay8 xa1 (k0_pay8 xa0 (k0_pay5 (F := F)))

/-- The positives' sums of squares accumulated over the two column halves, from zero. -/
def accSqp (xp0 xp1 : Vec F S512x2048 .f32) : FVec F S512x1 .f32 :=
  k0_pay9 xp1 (k0_pay9 xp0 (k0_pay6 (F := F)))

/-- The output block of the row half whose first grid coordinate is the word `a0`. -/
def halfOut (a0 : BitVec 32) (xa0 xa1 : Vec F S256x2048 .f32) (xp0 xp1 : Vec F S512x2048 .f32) : FVec F S8x128 .f32 :=
  k0_pay1 (k0_pay2 a0 (accSqa xa0 xa1) (accSqp xp0 xp1) (accDot xa0 xa1 xp0 xp1))
    (k0_pay3 a0 (accSqa xa0 xa1) (accSqp xp0 xp1) (accDot xa0 xa1 xp0 xp1))

end Cert.KernelIdeal.Block

end
-- ==== Proof.KernelCarry.lean ====
/-
  What the output's staging buffer holds after the second point of a row half: the half's output block, as a term of
  the input blocks at the half's two points.

  The grid's four points run in the order (0,0), (0,1), (1,0), (1,1): an even point clears the accumulators and adds
  its blocks' contribution, the odd point after it adds its own and writes the output block. So after an odd point
  `t` the staging buffer holds `halfOut` of the blocks at `t - 1` and at `t`, whatever came before.
-/
import proofs.«142533_j54082228191620_2_alg».proof.Proof.KernelPieces
import proofs.«142533_j54082228191620_2_alg».proof.Proof.KernelBlock

set_option maxRecDepth 16384

noncomputable section

namespace Cert.KernelIdeal.Carry

open Cert.KernelIdeal Cert.KernelIdeal.Gen Cert.KernelIdeal.Pieces Cert.KernelIdeal.Block
open Idealize.ShloMosaic Idealize.ShloMosaic.TcCoe Idealize.SL Idealize.SL.Sem

variable {F : FTy → Type} [FloatOps F]
variable (m : (ℓ : Loc nD τ sig) → Buf (Elt F) ℓ)

/-- After an even point the three accumulators hold that point's contribution added to zero. -/
theorem acc_even (c : Dev nD) (n : ℕ) (hn : n < cfg0.N) (h0 : n % 2 = 0) :
    (outsAt0 m c n hn).2.1 = k0_pay7 (iblk m c 0 ⟨n, hn⟩) (iblk m c 1 ⟨n, hn⟩) (k0_pay4 (F := F))
    ∧ (outsAt0 m c n hn).2.2.1 = k0_pay8 (iblk m c 0 ⟨n, hn⟩) (k0_pay5 (F := F))
    ∧ (outsAt0 m c n hn).2.2.2 = k0_pay9 (iblk m c 1 ⟨n, hn⟩) (k0_pay6 (F := F)) := by
  have h1 : ¬(⟨n, hn⟩ : Fin cfg0.N).val % 2 = 1 := by dsimp only; omega
  have e : outsAt0 m c n hn = _ := outsAt0_A m c ⟨n, hn⟩ h0 h1
  rw [e]
  dsimp only
  exact ⟨first_dot (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (iblk m c 0 ⟨n, hn⟩) (iblk m c 1 ⟨n, hn⟩),
    first_sqa (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (iblk m c 0 ⟨n, hn⟩) (iblk m c 1 ⟨n, hn⟩),
    first_sqp (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) ((hcond0_0 ⟨n, hn⟩).mpr h0) (fun h => h1 ((hcond0_1 ⟨n, hn⟩).mp h)) (iblk m c 0 ⟨n, hn⟩) (iblk m c 1 ⟨n, hn⟩)⟩

/-- The first grid coordinate of the point in position `t` of the run is `t / 2`: decided over the four points. -/
theorem coord0 : ∀ t : Fin cfg0.N, ((grid0.coords t) 0).val = t.val / 2 :=
  (by decide +kernel : ∀ t : Fin grid0.N, ((grid0.coords t) 0).val = t.val / 2)

/-- After an odd point the output's staging buffer holds the row half's output block. -/
theorem out_odd (c : Dev nD) (t : Fin cfg0.N) (h1 : t.val % 2 = 1) :
    (outsAt0 m c t.val t.isLt).1
      = halfOut (F := F) (BitVec.ofNat 32 (t.val / 2))
          (iblk m c 0 ⟨t.val - 1, Nat.lt_of_le_of_lt (Nat.sub_le _ _) t.isLt⟩) (iblk m c 0 t)
          (iblk m c 1 ⟨t.val - 1, Nat.lt_of_le_of_lt (Nat.sub_le _ _) t.isLt⟩) (iblk m c 1 t) := by
  have h0 : ¬t.val % 2 = 0 := by omega
  have hp : (t.val - 1) % 2 = 0 := by omega
  obtain ⟨e0, e1, e2⟩ := acc_even m c (t.val - 1) (Nat.lt_of_le_of_lt (Nat.sub_le _ _) t.isLt) hp
  rw [outsAt0_B m c t h0 h1]
  dsimp only
  rw [e0, e1, e2, ← coord0 t]
  exact second_out (F := F) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) _ _ _

end Cert.KernelIdeal.Carry

end
-- ==== Proof.KernelArray.lean ====
/-
  The output array after the run, read at the rows the host lines use.

  The 16 × 128 output array is written back twice, after the odd points of the run: rows 0 … 7 receive the first row
  half's output block, rows 8 … 15 the second's. Both are blocks of one whole-array function `G` of the argument
  arrays, so an index under a written block reads `G` after the run, whatever order the points ran in. An input
  window's block at a point is the argument array read at the rows and columns the point selects: the anchors' rows
  `256 (t / 2) …` and columns `2048 (t % 2) …`, the positives' columns `2048 (t % 2) …` of all rows.
-/
import proofs.«142533_j54082228191620_2_alg».proof.Proof.KernelCarry
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Block Cert.KernelIdeal.Carry
open Idealize.ShloMosaic Idealize.ShloMosaic.TcCoe Idealize.ShloMosaic.ValueIdx Idealize.SL Idealize.SL.Sem
open Idealize.ShloMosaic.Pipeline (Dat)

variable {F : FTy → Type} [FloatOps F]
variable (m : (ℓ : Loc nD τ sig) → Buf (Elt F) ℓ)

/-- The three windows' block indices at each point of the run, decided over the four points. -/
theorem win0_index (t : Fin cfg0.N) : win0_0.index t 0 = t.val / 2 ∧ win0_0.index t 1 = t.val % 2
    ∧ win0_1.index t 0 = 0 ∧ win0_1.index t 1 = t.val % 2 ∧ win0_2.index t 0 = t.val / 2 ∧ win0_2.index t 1 = 0 := by
  rcases fin_N0 t with rfl | rfl | rfl | rfl <;> decide

/-- The anchors' block at point `t`, at row `r` and column `k`, is the argument at row `256 (t / 2) + r`, column `2048 (t % 2) + k`. -/
theorem anchors_block (c : Dev nD) (t : Fin cfg0.N) (r : Fin 256) (k : Fin 2048) (a : Fin 512) (b : Fin 4096)
    (ha : a.val = 256 * (t.val / 2) + r.val) (hb : b.val = 2048 * (t.val % 2) + k.val) :
    (iblk m c 0 t : Vec F S256x2048 .f32) (ix2 r k) = m ((c : Thread nD τ).loc main_arg0) (ix2 a b) := by
  obtain ⟨h0, h1, -⟩ := win0_index t
  unfold iblk
  rw [View.read_apply]
  show m ((c : Thread nD τ).loc main_arg0) _ = m ((c : Thread nD τ).loc main_arg0) _
  congr 1
  funext d
  apply Fin.ext
  match d with
  | ⟨0, _⟩ => show win0_0.index t 0 * 256 + 1 * r.val = a.val; rw [h0, ha]; omega
  | ⟨1, _⟩ => show win0_0.index t 1 * 2048 + 1 * k.val = b.val; rw [h1, hb]; omega

/-- The positives' block at point `t`, at row `n` and column `k`, is the argument at row `n`, column `2048 (t % 2) + k`. -/
theorem positives_block (c : Dev nD) (t : Fin cfg0.N) (n : Fin 512) (k : Fin 2048) (b : Fin 4096)
    (hb : b.val = 2048 * (t.val % 2) + k.val) :
    (iblk m c 1 t : Vec F S512x2048 .f32) (ix2 n k) = m ((c : Thread nD τ).loc main_arg1) (ix2 n b) := by
  obtain ⟨-, -, h0, h1, -⟩ := win0_index t
  unfold iblk
  rw [View.read_apply]
  show m ((c : Thread nD τ).loc main_arg1) _ = m ((c : Thread nD τ).loc main_arg1) _
  congr 1
  funext d
  apply Fin.ext
  match d with
  | ⟨0, _⟩ => show win0_1.index t 0 * 512 + 1 * n.val = n.val; rw [h0]; omega
  | ⟨1, _⟩ => show win0_1.index t 1 * 2048 + 1 * k.val = b.val; rw [h1, hb]; omega

/-- The output block of row half `h`, from the argument arrays' blocks at the half's two points. -/
def halfBlock (c : Dev nD) : Fin 2 → Vec F S8x128 .f32
  | ⟨0, _⟩ => halfOut (F := F) (BitVec.ofNat 32 (0 : Fin 2).val) (iblk m c 0 t0_0) (iblk m c 0 t0_1) (iblk m c 1 t0_0) (iblk m c 1 t0_1)
  | ⟨1, _⟩ => halfOut (F := F) (BitVec.ofNat 32 (1 : Fin 2).val) (iblk m c 0 t0_2) (iblk m c 0 t0_3) (iblk m c 1 t0_2) (iblk m c 1 t0_3)

/-- After the second point of the run the staging buffer holds the first row half's block, -/
theorem out_t1 (c : Dev nD) : (outsAt0 m c t0_1.val t0_1.isLt).1 = halfBlock m c 0 :=
  (out_odd m c t0_1 (by decide)).trans rfl

/-- and after the fourth the second's. -/
theorem out_t3 (c : Dev nD) : (outsAt0 m c t0_3.val t0_3.isLt).1 = halfBlock m c 1 :=
  (out_odd m c t0_3 (by decide)).trans rfl

/-- The whole output array: row half `h`'s block at rows `8h … 8h+7`. -/
def G (c : Dev nD) : Buf (Elt F) ((c : Thread nD τ).loc main_v0) := fun y =>
  halfBlock m c ⟨(y 0).val / 8, by have : (y 0).val < 16 := (y 0).isLt; omega⟩
    (ix2 (⟨(y 0).val % 8, by omega⟩ : Fin 8) (⟨(y 1).val, show (y 1).val < 128 from (y 1).isLt⟩ : Fin 128))

/-- `G` at row `8h + x₀`, column `x₁` is row half `h`'s block at `(x₀, x₁)`. -/
theorem G_at (c : Dev nD) (h : Fin 2) (y : S16x128.Idx) (x : S8x128.Idx)
    (hy0 : (y 0).val = 8 * h.val + (x 0).val) (hy1 : (y 1).val = (x 1).val) : G m c y = halfBlock m c h x := by
  have hx0 : (x 0).val < 8 := (x 0).isLt
  have e1 : (⟨(y 0).val / 8, by have : (y 0).val < 16 := (y 0).isLt; omega⟩ : Fin 2) = h := Fin.ext (by show (y 0).val / 8 = h.val; omega)
  have e2 : (ix2 (⟨(y 0).val % 8, by omega⟩ : Fin 8) (⟨(y 1).val, show (y 1).val < 128 from (y 1).isLt⟩ : Fin 128) : S8x128.Idx) = x := by
    refine Eq.trans ?_ (eq_ix2 x).symm
    congr 1
    · exact Fin.ext (by show (y 0).val % 8 = (x 0).val; omega)
    · exact Fin.ext hy1
  unfold G
  rw [e1, e2]

/-- Each write-back writes its block of `G`. -/
theorem flushed_eq (c : Dev nD) (t : Fin cfg0.N) (hf : (cfg0.win 2).flush t = true) :
    (dats m 0 c).flushed 2 t = ((cfg0.win 2).blk t).view.read (Elt F) (G m c) := by
  have h1 : t.val % 2 = 1 := (flush0_2 t).mp hf
  rcases fin_N0 t with rfl | rfl | rfl | rfl
  · exact absurd h1 (by decide)
  · show (cfg0.win 2).cut (grid0.coords t0_1) ((dats m 0 c).after 2 t0_1) = _
    rw [after0_2, out_t1]
    funext x
    rw [View.read_apply]
    refine (G_at m c 0 _ x ?_ ?_).symm
    · show win0_2.index t0_1 0 * 8 + 1 * (x 0).val = 8 * (0 : Fin 2).val + (x 0).val
      rw [(win0_index t0_1).2.2.2.2.1]; show 1 / 2 * 8 + 1 * (x 0).val = 8 * 0 + (x 0).val; omega
    · show win0_2.index t0_1 1 * 128 + 1 * (x 1).val = (x 1).val
      rw [(win0_index t0_1).2.2.2.2.2]; omega
  · exact absurd h1 (by decide)
  · show (cfg0.win 2).cut (grid0.coords t0_3) ((dats m 0 c).after 2 t0_3) = _
    rw [after0_2, out_t3]
    funext x
    rw [View.read_apply]
    refine (G_at m c 1 _ x ?_ ?_).symm
    · show win0_2.index t0_3 0 * 8 + 1 * (x 0).val = 8 * (1 : Fin 2).val + (x 0).val
      rw [(win0_index t0_3).2.2.2.2.1]; show 3 / 2 * 8 + 1 * (x 0).val = 8 * 1 + (x 0).val; omega
    · show win0_2.index t0_3 1 * 128 + 1 * (x 1).val = (x 1).val
      rw [(win0_index t0_3).2.2.2.2.2]; omega

/-- The output window's rectangle at each point, decided over the grid. -/
theorem out_rect : ∀ t : Fin cfg0.N, win0_2.index t 0 * win0_2.size 0 = 8 * (t.val / 2) ∧ win0_2.xsize (grid0.coords t) 0 = 8
    ∧ win0_2.index t 1 * win0_2.size 1 = 0 ∧ win0_2.xsize (grid0.coords t) 1 = 128 :=
  (by decide +kernel : ∀ t : Fin grid0.N, win0_2.index t 0 * win0_2.size 0 = 8 * (t.val / 2) ∧ win0_2.xsize (grid0.coords t) 0 = 8
    ∧ win0_2.index t 1 * win0_2.size 1 = 0 ∧ win0_2.xsize (grid0.coords t) 1 = 128)

/-- An index in rows `8(t/2) … 8(t/2)+7` lies in the block of point `t`. -/
theorem mem_blk (t : Fin cfg0.N) (i : S16x128.Idx) (hlo : 8 * (t.val / 2) ≤ (i 0).val) (hhi : (i 0).val < 8 * (t.val / 2) + 8) :
    i ∈ ((cfg0.win 2).blk t).view.set := by
  obtain ⟨r0, r1, r2, r3⟩ := out_rect t
  show i ∈ ((View.whole main_v0).slice (win0_2.rect t)).set
  rw [View.set_slice_whole, Rect.mem_set_unit]
  intro a
  have h1 : (i 1 : Nat) < 128 := (i 1).isLt
  match a with
  | ⟨0, _⟩ => show win0_2.index t 0 * win0_2.size 0 ≤ (i 0 : Nat) ∧ (i 0 : Nat) < win0_2.index t 0 * win0_2.size 0 + win0_2.xsize (grid0.coords t) 0
              rw [r0, r1]; exact ⟨hlo, hhi⟩
  | ⟨1, _⟩ => show win0_2.index t 1 * win0_2.size 1 ≤ (i 1 : Nat) ∧ (i 1 : Nat) < win0_2.index t 1 * win0_2.size 1 + win0_2.xsize (grid0.coords t) 1
              rw [r2, r3]; omega

/-- After the run, rows 0 … 7 of the output array hold the first row half's block. -/
theorem final_lo (c : Dev nD) (i : S16x128.Idx) (x : S8x128.Idx) (h0 : (i 0).val = (x 0).val) (h1 : (i 1).val = (x 1).val) :
    (dats m 0 c).arrAt 2 cfg0.N i = halfBlock m c 0 x := by
  have hx : (x 0).val < 8 := (x 0).isLt
  rw [(dats m 0 c).arrAt_apply_of_mem 2 (G m c) (flushed_eq m c) cfg0.N t0_1 i t0_1.isLt ((flush0_2 t0_1).mpr (by decide))
    (mem_blk t0_1 i (by show 8 * (1 / 2) ≤ (i 0).val; omega) (by show (i 0).val < 8 * (1 / 2) + 8; omega))]
  exact G_at m c 0 i x (by show (i 0).val = 8 * 0 + (x 0).val; omega) h1

/-- After the run, rows 8 … 15 of the output array hold the second row half's block. -/
theorem final_hi (c : Dev nD) (i : S16x128.Idx) (x : S8x128.Idx) (h0 : (i 0).val = 8 + (x 0).val) (h1 : (i 1).val = (x 1).val) :
    (dats m 0 c).arrAt 2 cfg0.N i = halfBlock m c 1 x := by
  have hx : (x 0).val < 8 := (x 0).isLt
  rw [(dats m 0 c).arrAt_apply_of_mem 2 (G m c) (flushed_eq m c) cfg0.N t0_3 i t0_3.isLt ((flush0_2 t0_3).mpr (by decide))
    (mem_blk t0_3 i (by show 8 * (3 / 2) ≤ (i 0).val; omega) (by show (i 0).val < 8 * (3 / 2) + 8; omega))]
  exact G_at m c 1 i x (by show (i 0).val = 8 * 1 + (x 0).val; omega) h1

end Cert.KernelIdeal.Arr
end
-- ==== Proof.TripletSpec.lean ====
/-
  The triplet loss both programs compute, as one function of the two input tables.

  For anchors `A` and positives `P` (512 rows of 4096 extended reals each):
    dot a n  = Σ_k A a k · P n k                        the pairwise products
    sq X a   = Σ_k X a k · X a k                        a row's sum of squares
    d2 a n   = max (sq A a − 2 · dot a n + sq P n) 0    the clamped squared distance
    zm a n   = 1 if d2 a n = 0, else 0                  the mask of vanishing distances
    dist a n = (1 − zm a n) · √(d2 a n + zm a n · ε)    the distance, zero where d2 vanishes
    trip a n = max ((dist a a − dist a n) · (1 − [a = n])) 0
  and the loss is (Σ_a Σ_n trip a n) / (#{(a, n) : trip a n > ε} + ε). The float literals are kept as the
  words the programs print; only the word of zero and the word of one are ever evaluated.
-/
import Idealize.ShloMosaic.PureOps.Ideal
import Idealize.ShloMosaic.PureOps.Ideal.Laws
import Idealize.ShloMosaic.Lib.IdealHost

noncomputable section

namespace Cert.TripletSpec

open Idealize.ShloMosaic

/-- The word of zero. -/
abbrev zeroW : EReal := Ideal.ofBits .f32 0x00000000#32
/-- The word of one. -/
abbrev oneW : EReal := Ideal.ofBits .f32 0x3F800000#32
/-- The word of two. -/
abbrev twoW : EReal := Ideal.ofBits .f32 0x40000000#32
/-- The word the programs write for 1e-16. -/
abbrev epsW : EReal := Ideal.ofBits .f32 0x24E69595#32

/-- A one-bit word read as the float 0 or 1. -/
def ind (b : BitVec 1) : EReal := ((b.toNat : ℝ) : EReal)

variable (A P : Fin 512 → Fin 4096 → EReal)

/-- The product of anchor row `a` with positive row `n`. -/
def dot (a n : Fin 512) : EReal := ∑ k : Fin 4096, A a k * P n k

/-- A row's sum of squares. -/
def sq (X : Fin 512 → Fin 4096 → EReal) (a : Fin 512) : EReal := ∑ k : Fin 4096, X a k * X a k

/-- The squared distance between anchor `a` and positive `n`, clamped at zero. -/
def d2 (a n : Fin 512) : EReal := max (sq A a - twoW * dot A P a n + sq P n) zeroW

/-- 1 where the clamped squared distance vanishes, 0 elsewhere. -/
def zm (a n : Fin 512) : EReal := ind (Ideal.cmp .oeq (d2 A P a n) zeroW)

/-- The distance: zero where the squared distance vanishes, its square root elsewhere. -/
def dist (a n : Fin 512) : EReal := (oneW - zm A P a n) * Ideal.sqrt (d2 A P a n + zm A P a n * epsW)

/-- 1 on the diagonal, 0 off it. -/
def eqm (a n : Fin 512) : EReal := ind (BitVec.ofBool (decide (a = n)))

/-- The hinge of anchor `a` against negative `n`: the distance to its own positive less the distance to `n`,
    dropped on the diagonal and clamped at zero. -/
def trip (a n : Fin 512) : EReal := max ((dist A P a a - dist A P a n) * (oneW - eqm a n)) zeroW

/-- The sum of all hinges. -/
def lossSum : EReal := ∑ a : Fin 512, ∑ n : Fin 512, trip A P a n

/-- The number of hinges above ε, as a sum of zeros and ones. -/
def lossCnt : EReal := ∑ a : Fin 512, ∑ n : Fin 512, ind (Ideal.cmp .ogt (trip A P a n) epsW)

/-- The loss. -/
def loss : EReal := Ideal.div (lossSum A P) (lossCnt A P + epsW)

end Cert.TripletSpec

end
-- ==== Proof.KernelTail.lean ====
/-
  The host lines after the region: the result scalar as a function of the output array.

  After the region the host takes four entries of the 16 × 128 output array — (0,0) and (8,0), the two row halves'
  sums of hinges; (0,1) and (8,1), their counts — each as a one-element slice reshaped to a scalar, and returns
  (sum₀ + sum₁) / ((count₀ + count₁) + ε).
-/
import proofs.«142533_j54082228191620_2_alg».proof.Proof.Gen.KernelIdeal.Frame
import proofs.«142533_j54082228191620_2_alg».proof.Proof.TripletSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Tail

open Cert.KernelIdeal Cert.KernelIdeal.Gen Cert.TripletSpec
open Idealize.ShloMosaic Idealize.ShloMosaic.TcCoe Idealize.ShloMosaic.ValueIdx Idealize.SL Idealize.SL.Sem
open Idealize.ShloMosaic.Pipeline (Dat)

variable {F : FTy → Type} [FloatOps F]
variable (m : (ℓ : Loc nD τ sig) → Buf (Elt F) ℓ)

/-- One entry of the output array as a scalar: the host's one-element slice, reshaped. -/
def entry (O : (⟨S16x128, .f32⟩ : BufTy).Contents (Elt F)) (off : Fin 2 → Nat) (h : S16x128.Slices off S1x1) :
    (⟨S_, .f32⟩ : BufTy).Contents (Elt F) :=
  shapeCast S_ (extractStridedSlice S1x1 off O h) shapeCasts_S1x1_S_

/-- The host lines after the region, as one function of the output array. -/
def tail (O : (⟨S16x128, .f32⟩ : BufTy).Contents (Elt F)) : (⟨S_, .f32⟩ : BufTy).Contents (Elt F) :=
  Host.divf (addf (entry O ![0, 0] slices_S16x128_S1x1_0_0) (entry O ![8, 0] slices_S16x128_S1x1_8_0))
    (addf (addf (entry O ![0, 1] slices_S16x128_S1x1_0_1) (entry O ![8, 1] slices_S16x128_S1x1_8_1))
      (constant (F := F) S_ .f32 0x24E69595#32))

/-- What the result buffer holds after the host lines: `tail` of the output array as the run left it. -/
theorem tail_eq (c : Dev nD) :
    Pipeline.afterTail₀ cfgs (dats m) 0 (V0 m) [hostOps1] c main_v12 = tail ((dats m 0 c).arrAt 2 cfg0.N) := by
  unfold Pipeline.afterTail₀
  show StableHlo.after hostOps1 _ (Proc.devRef .tc main_v12) = _
  after_results
  refine Eq.trans ?_ (congrArg tail (Pipeline.withArrays_arr spec0 winFacts0.arr_inj c (V0 m c) (fun w => (dats m 0 c).arrAt w (cfgs 0).N) 2))
  rfl

/-- An entry read at the scalar's one index is the array at that row and column. -/
theorem entry_apply (O : (⟨S16x128, .f32⟩ : BufTy).Contents (Elt F)) (off : Fin 2 → Nat) (h : S16x128.Slices off S1x1)
    (a : Fin 16) (b : Fin 128) (h0 : off 0 = a.val) (h1 : off 1 = b.val) (j : S_.Idx) :
    entry O off h j = O (ix2 a b) := by
  unfold entry
  have e1 : S1x1.numel = 1 := by decide
  have e2 : S_.numel = 1 := by decide
  rw [shapeCast_apply (extractStridedSlice S1x1 off O h) shapeCasts_S1x1_S_ j (ix2 (0 : Fin 1) (0 : Fin 1))
    (by have := (S1x1.rowMajor (ix2 (0 : Fin 1) (0 : Fin 1))).isLt; have := (S_.rowMajor j).isLt; omega)]
  exact extractStridedSlice_apply off O h (ix2 (0 : Fin 1) (0 : Fin 1)) (ix2 a b) (fun d => match d with
    | ⟨0, _⟩ => by show a.val = off 0 + 0; omega
    | ⟨1, _⟩ => by show b.val = off 1 + 0; omega)

/-- Over the extended reals the result is the quotient of the halves' sums by their counts plus ε. -/
theorem tail_apply (O : (⟨S16x128, .f32⟩ : BufTy).Contents (Elt Ideal)) (j : S_.Idx) :
    tail (F := Ideal) O j
      = Ideal.div (O (ix2 (0 : Fin 16) (0 : Fin 128)) + O (ix2 (8 : Fin 16) (0 : Fin 128)))
          ((O (ix2 (0 : Fin 16) (1 : Fin 128)) + O (ix2 (8 : Fin 16) (1 : Fin 128))) + epsW) := by
  show Ideal.div (entry O ![0, 0] slices_S16x128_S1x1_0_0 j + entry O ![8, 0] slices_S16x128_S1x1_8_0 j)
      ((entry O ![0, 1] slices_S16x128_S1x1_0_1 j + entry O ![8, 1] slices_S16x128_S1x1_8_1 j) + epsW) = _
  rw [entry_apply O ![0, 0] slices_S16x128_S1x1_0_0 0 0 rfl rfl j, entry_apply O ![8, 0] slices_S16x128_S1x1_8_0 8 0 rfl rfl j,
    entry_apply O ![0, 1] slices_S16x128_S1x1_0_1 0 1 rfl rfl j, entry_apply O ![8, 1] slices_S16x128_S1x1_8_1 8 1 rfl rfl j]

end Cert.KernelIdeal.Tail

end
-- ==== Proof.KernelAcc.lean ====
/-
  The three accumulators of one row half, read at an index.

  Each accumulator starts at zero and receives one column half's contribution at a time: the products' table gets
  Σ_k a(r,k) · p(n,k) over the half's 2048 columns, the two columns of squares get Σ_k x(r,k)². Reading both halves and
  joining the two sums over 2048 columns into one over all 4096 gives the full products and sums of squares.
-/
import proofs.«142533_j54082228191620_2_alg».proof.Proof.KernelBlock
import proofs.«142533_j54082228191620_2_alg».proof.Proof.TripletSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Acc

open Cert.KernelIdeal Cert.KernelIdeal.Gen Cert.KernelIdeal.Block Cert.TripletSpec
open Idealize.ShloMosaic Idealize.ShloMosaic.ValueIdx

/-- A sum over all 4096 columns is the sum over the first 2048 plus the sum over the last 2048. -/
theorem sum_cols (f : Fin 4096 → EReal) :
    ∑ k : Fin 4096, f k = ∑ k : Fin 2048, f (colLo k) + ∑ k : Fin 2048, f (colHi k) :=
  Fin.sum_univ_add (a := 2048) (b := 2048) f

/-- A vector of length `a` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The anchors' squares: one column half's row sums added to the accumulator. -/
theorem pay8_apply (x : Vec Ideal S256x2048 .f32) (acc : Vec Ideal S256x1 .f32) (r : Fin 256) (u : Fin 1) :
    k0_pay8 (F := Ideal) x acc (ix2 r u) = acc (ix2 r u) + ∑ k : Fin 2048, x (ix2 r k) * x (ix2 r k) := by
  unfold k0_pay8
  simp only [shapeCast_self]
  refine congrArg (acc (ix2 r u) + ·) ?_
  refine (shapeCast_a_a1_apply _ shapeCasts_S256_S256x1 r u).trans ?_
  refine (Ideal.multiReduction_add_single _ _ reduces_S256x2048_S256 _ _ (ix1 r)).trans ?_
  refine Finset.sum_congr rfl fun k _ => ?_
  have e : reduces_S256x2048_S256.lift (ix1 r) k = ix2 r k :=
    funext fun a => Fin.ext (by match a with | ⟨0, _⟩ => rfl | ⟨1, _⟩ => rfl)
  rw [e]
  rfl

/-- The positives' squares likewise. -/
theorem pay9_apply (x : Vec Ideal S512x2048 .f32) (acc : Vec Ideal S512x1 .f32) (n : Fin 512) (u : Fin 1) :
    k0_pay9 (F := Ideal) x acc (ix2 n u) = acc (ix2 n u) + ∑ k : Fin 2048, x (ix2 n k) * x (ix2 n k) := by
  unfold k0_pay9
  simp only [shapeCast_self]
  refine congrArg (acc (ix2 n u) + ·) ?_
  refine (shapeCast_a_a1_apply _ shapeCasts_S512_S512x1 n u).trans ?_
  refine (Ideal.multiReduction_add_single _ _ reduces_S512x2048_S512 _ _ (ix1 n)).trans ?_
  refine Finset.sum_congr rfl fun k _ => ?_
  have e : reduces_S512x2048_S512.lift (ix1 n) k = ix2 n k :=
    funext fun a => Fin.ext (by match a with | ⟨0, _⟩ => rfl | ⟨1, _⟩ => rfl)
  rw [e]
  rfl

/-- The record of the kernel's contraction: axis 1 of both operands. -/
abbrev D := dot_S256x2048_S512x2048_S256x512_1_1_0_0_n_n

theorem lhs_0 (i : S256x512.Idx) (q : D.contr.Idx) : (D.lhsIdx i q 0).val = (i 0).val := by
  unfold DotDims.lhsIdx
  rw [dif_neg (show ¬(0 : Fin S256x2048.rank) ∈ D.lhsBatch by decide), dif_pos (show (0 : Fin S256x2048.rank) ∈ D.lhsNonContracting by decide)]
  rfl
theorem lhs_1 (i : S256x512.Idx) (q : D.contr.Idx) : (D.lhsIdx i q 1).val = (q ⟨0, by decide⟩).val :=
  D.lhsIdx_val_of_single rfl i q
theorem rhs_0 (i : S256x512.Idx) (q : D.contr.Idx) : (D.rhsIdx i q 0).val = (i 1).val := by
  unfold DotDims.rhsIdx
  rw [dif_neg (show ¬(0 : Fin S512x2048.rank) ∈ D.rhsBatch by decide), dif_pos (show (0 : Fin S512x2048.rank) ∈ D.rhsNonContracting by decide)]
  rfl
theorem rhs_1 (i : S256x512.Idx) (q : D.contr.Idx) : (D.rhsIdx i q 1).val = (q ⟨0, by decide⟩).val :=
  D.rhsIdx_val_of_single rfl i q

/-- The products: one column half's products of row `r` of the anchors with row `n` of the positives, added to the
    accumulator. The change of float format on the way into the contraction is the identity on extended reals. -/
theorem pay7_apply (xa : Vec Ideal S256x2048 .f32) (xp : Vec Ideal S512x2048 .f32) (acc : Vec Ideal S256x512 .f32)
    (r : Fin 256) (n : Fin 512) :
    k0_pay7 (F := Ideal) xa xp acc (ix2 r n) = acc (ix2 r n) + ∑ k : Fin 2048, xa (ix2 r k) * xp (ix2 n k) := by
  unfold k0_pay7
  simp only [shapeCast_self]
  refine congrArg (acc (ix2 r n) + ·) ?_
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 r n) ((contrEquiv1 D 2048 rfl rfl).symm k) = ix2 r k := funext fun a => Fin.ext (by
    match a with
    | ⟨0, _⟩ => exact lhs_0 _ _
    | ⟨1, _⟩ => exact (lhs_1 _ _).trans hk)
  have er : D.rhsIdx (ix2 r n) ((contrEquiv1 D 2048 rfl rfl).symm k) = ix2 n k := funext fun a => Fin.ext (by
    match a with
    | ⟨0, _⟩ => exact rhs_0 _ _
    | ⟨1, _⟩ => exact (rhs_1 _ _).trans hk)
  rw [el, er]
  rfl

/-- The cleared accumulators are zero at every index. -/
theorem pay4_apply (i : S256x512.Idx) : k0_pay4 (F := Ideal) i = 0 := by
  unfold k0_pay4
  simp only [shapeCast_self]
  exact Ideal.ofBits_zero_f32
theorem pay5_apply (i : S256x1.Idx) : k0_pay5 (F := Ideal) i = 0 := by
  unfold k0_pay5
  simp only [shapeCast_self]
  exact Ideal.ofBits_zero_f32
theorem pay6_apply (i : S512x1.Idx) : k0_pay6 (F := Ideal) i = 0 := by
  unfold k0_pay6
  simp only [shapeCast_self]
  exact Ideal.ofBits_zero_f32

section
variable (h : Fin 2) (A P : Fin 512 → Fin 4096 → EReal)
variable (xa0 xa1 : Vec Ideal S256x2048 .f32) (xp0 xp1 : Vec Ideal S512x2048 .f32)

/-- The completed products' accumulator at `(r, n)` is the product of anchor row `256·h + r` with positive row `n`. -/
theorem accDot_apply
    (ha0 : ∀ (r : Fin 256) (k : Fin 2048), xa0 (ix2 r k) = A (row h r) (colLo k))
    (ha1 : ∀ (r : Fin 256) (k : Fin 2048), xa1 (ix2 r k) = A (row h r) (colHi k))
    (hp0 : ∀ (n : Fin 512) (k : Fin 2048), xp0 (ix2 n k) = P n (colLo k))
    (hp1 : ∀ (n : Fin 512) (k : Fin 2048), xp1 (ix2 n k) = P n (colHi k)) (r : Fin 256) (n : Fin 512) :
    accDot (F := Ideal) xa0 xa1 xp0 xp1 (ix2 r n) = dot A P (row h r) n := by
  unfold accDot dot
  rw [pay7_apply, pay7_apply, pay4_apply, zero_add, sum_cols]
  simp only [ha0, ha1, hp0, hp1]

/-- The completed anchors' column at `(r, u)` is the sum of squares of anchor row `256·h + r`. -/
theorem accSqa_apply
    (ha0 : ∀ (r : Fin 256) (k : Fin 2048), xa0 (ix2 r k) = A (row h r) (colLo k))
    (ha1 : ∀ (r : Fin 256) (k : Fin 2048), xa1 (ix2 r k) = A (row h r) (colHi k)) (r : Fin 256) (u : Fin 1) :
    accSqa (F := Ideal) xa0 xa1 (ix2 r u) = sq A (row h r) := by
  unfold accSqa TripletSpec.sq
  rw [pay8_apply, pay8_apply, pay5_apply, zero_add, sum_cols]
  simp only [ha0, ha1]

/-- The completed positives' column at `(n, u)` is the sum of squares of positive row `n`. -/
theorem accSqp_apply
    (hp0 : ∀ (n : Fin 512) (k : Fin 2048), xp0 (ix2 n k) = P n (colLo k))
    (hp1 : ∀ (n : Fin 512) (k : Fin 2048), xp1 (ix2 n k) = P n (colHi k)) (n : Fin 512) (u : Fin 1) :
    accSqp (F := Ideal) xp0 xp1 (ix2 n u) = sq P n := by
  unfold accSqp TripletSpec.sq
  rw [pay9_apply, pay9_apply, pay6_apply, zero_add, sum_cols]
  simp only [hp0, hp1]

end

end Cert.KernelIdeal.Acc

end
-- ==== Proof.IndexSums.lean ====
/-
  Sums over a rank-3 index set as triple sums over its coordinates, and the few facts about one-bit words read as
  floats that both sides of the comparison use.
-/
import Idealize.ShloMosaic.Lib.ValueIdx
import proofs.«142533_j54082228191620_2_alg».proof.Proof.TripletSpec

noncomputable section

namespace Cert.IndexSums

open Idealize.ShloMosaic Idealize.ShloMosaic.ValueIdx Cert.TripletSpec

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A one-bit word widened to 32 bits and read as a signed integer is the bit. -/
theorem toInt_setWidth_one (b : BitVec 1) : (b.setWidth 32).toInt = (b.toNat : Int) := by
  revert b; decide

/-- The float of a widened one-bit word is the bit read as 0 or 1. -/
theorem sitofp_setWidth_one (b : BitVec 1) : (((b.setWidth 32).toInt : ℝ) : EReal) = ind b := by
  rw [toInt_setWidth_one]; simp [ind]

theorem ind_zero : ind 0#1 = 0 := by simp [ind]
theorem ind_one : ind 1#1 = 1 := by simp [ind]

/-- The bit of a true proposition is 1, of a false one 0. -/
theorem ind_ofBool_true {p : Prop} [Decidable p] (h : p) : ind (BitVec.ofBool (decide p)) = 1 := by
  simp [h, ind]
theorem ind_ofBool_false {p : Prop} [Decidable p] (h : ¬p) : ind (BitVec.ofBool (decide p)) = 0 := by
  simp [h, ind]

end Cert.IndexSums

end
-- ==== Proof.KernelHinge.lean ====
/-
  The table of hinges of one row half, read at an index.

  From the three completed accumulators the kernel forms, for local row `r` and positive `n`, the clamped squared
  distance, its square root masked where it vanishes, the diagonal mask [256·h + r = n] from the two index ramps, the
  distance to the row's own positive as the masked row sum, and the clamped masked difference. Entry by entry this
  is the hinge `trip` of the specification at anchor row `256·h + r`.
-/
import proofs.«142533_j54082228191620_2_alg».proof.Proof.KernelAcc
import proofs.«142533_j54082228191620_2_alg».proof.Proof.IndexSums

noncomputable section

namespace Cert.KernelIdeal.Hinge

open Cert.KernelIdeal Cert.KernelIdeal.Gen Cert.KernelIdeal.Block Cert.TripletSpec Cert.IndexSums
open Idealize.ShloMosaic Idealize.ShloMosaic.ValueIdx

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-bit word widened, converted to a float: the bit as 0 or 1. -/
def bitF (m : IVec S256x512 1) : FVec Ideal S256x512 .f32 := sitofp .f32 (extui 32 m natLt_1_32)

theorem bitF_apply (m : IVec S256x512 1) (i : S256x512.Idx) : bitF m i = ind (m i) :=
  sitofp_setWidth_one (m i)

/-- The clamped squared distances as the kernel forms them. -/
def d2Tab (sqa : Vec Ideal S256x1 .f32) (sqp : Vec Ideal S512x1 .f32) (dotv : Vec Ideal S256x512 .f32) :
    FVec Ideal S256x512 .f32 :=
  maximumf
    (addf
      (subf (broadcastTo S256x512 sqa broadcasts_S256x1_S256x512)
        (mulf (broadcast S256x512 (Scalar.ofBits .f32 0x40000000#32)) dotv))
      (broadcastTo S256x512 (transpose S1x512 [1, 0] sqp transposes_S512x1_p1_0_S1x512) broadcasts_S1x512_S256x512))
    (broadcast S256x512 (Scalar.ofBits .f32 0x00000000#32))

/-- The distances: the square root, masked to zero where the squared distance vanishes. -/
def distTab (sqa : Vec Ideal S256x1 .f32) (sqp : Vec Ideal S512x1 .f32) (dotv : Vec Ideal S256x512 .f32) :
    FVec Ideal S256x512 .f32 :=
  mulf
    (subf (broadcast S256x512 (Scalar.ofBits .f32 0x3F800000#32))
      (bitF (cmpf .oeq (d2Tab sqa sqp dotv) (broadcast S256x512 (Scalar.ofBits .f32 0x00000000#32)))))
    (sqrt (addf (d2Tab sqa sqp dotv)
      (mulf (bitF (cmpf .oeq (d2Tab sqa sqp dotv) (broadcast S256x512 (Scalar.ofBits .f32 0x00000000#32))))
        (broadcast S256x512 (Scalar.ofBits .f32 0x24E69595#32)))))

/-- The diagonal mask: 1 where the global row index equals the column index. -/
def diagTab (a0 : BitVec 32) : FVec Ideal S256x512 .f32 :=
  bitF (cmpi .eq
    (addi (iota .tc S256x512 32 [0] iota_S256x512_d0_w32) (broadcast S256x512 (Scalar.muli a0 256#32)))
    (iota .tc S256x512 32 [1] iota_S256x512_d1_w32))

/-- The kernel's hinge table in terms of the distances and the diagonal mask. -/
theorem pay2_eq (a0 : BitVec 32) (sqa : Vec Ideal S256x1 .f32) (sqp : Vec Ideal S512x1 .f32)
    (dotv : Vec Ideal S256x512 .f32) :
    k0_pay2 (F := Ideal) a0 sqa sqp dotv =
      maximumf
        (mulf
          (subf
            (broadcastTo S256x512
              (shapeCast S256x1
                (multiReduction (F := Ideal) .add [1] S256 (mulf (distTab sqa sqp dotv) (diagTab a0)) 0x00000000#32
                  reduces_S256x512_S256 (.inl rfl) rfl)
                shapeCasts_S256_S256x1)
              broadcasts_S256x1_S256x512)
            (distTab sqa sqp dotv))
          (subf (broadcast S256x512 (Scalar.ofBits .f32 0x3F800000#32)) (diagTab a0)))
        (broadcast S256x512 (Scalar.ofBits .f32 0x00000000#32)) := rfl

/-- The diagonal bit: with every value below 512 the 32-bit sum does not wrap. -/
theorem diag_bit (h : Fin 2) (r : Fin 256) (n : Fin 512) :
    IntOp.cmpi .eq (IntOp.addi (BitVec.ofNat 32 r.val) (Scalar.muli (BitVec.ofNat 32 h.val) 256#32)) (BitVec.ofNat 32 n.val)
      = BitVec.ofBool (decide (row h r = n)) := by
  have hr := r.isLt
  have hh := h.isLt
  have hn := n.isLt
  have e : IntOp.addi (BitVec.ofNat 32 r.val) (Scalar.muli (BitVec.ofNat 32 h.val) 256#32)
      = BitVec.ofNat 32 (r.val + h.val * 256) := by
    show BitVec.ofNat 32 r.val + BitVec.ofNat 32 h.val * BitVec.ofNat 32 256 = _
    rw [BitVec.ofNat_mul_ofNat, BitVec.ofNat_add_ofNat]
  rw [e]
  show BitVec.ofBool (BitVec.ofNat 32 (r.val + h.val * 256) == BitVec.ofNat 32 n.val) = _
  refine congrArg BitVec.ofBool ?_
  rw [Bool.eq_iff_iff, beq_iff_eq, decide_eq_true_eq]
  constructor
  · intro hh'
    have h2 := congrArg BitVec.toNat hh'
    rw [BitVec.toNat_ofNat, BitVec.toNat_ofNat, Nat.mod_eq_of_lt (by omega), Nat.mod_eq_of_lt (by omega)] at h2
    exact Fin.ext (by show 256 * h.val + r.val = n.val; omega)
  · intro hh'
    have h2 : 256 * h.val + r.val = n.val := congrArg Fin.val hh'
    exact congrArg (BitVec.ofNat 32) (by omega)

section
variable (h : Fin 2) (A P : Fin 512 → Fin 4096 → EReal)
variable (sqa : Vec Ideal S256x1 .f32) (sqp : Vec Ideal S512x1 .f32) (dotv : Vec Ideal S256x512 .f32)

theorem diagTab_apply (r : Fin 256) (n : Fin 512) :
    diagTab (BitVec.ofNat 32 h.val) (ix2 r n) = eqm (row h r) n := by
  unfold diagTab
  rw [bitF_apply]
  unfold eqm
  refine congrArg ind ?_
  refine Eq.trans ?_ (diag_bit h r n)
  show IntOp.cmpi .eq (IntOp.addi (iota .tc S256x512 32 [0] iota_S256x512_d0_w32 (ix2 r n)) _)
      (iota .tc S256x512 32 [1] iota_S256x512_d1_w32 (ix2 r n)) = _
  rw [iota_single_apply, iota_single_apply]
  rfl

theorem d2Tab_apply
    (hsqa : ∀ (r : Fin 256) (u : Fin 1), sqa (ix2 r u) = sq A (row h r))
    (hsqp : ∀ (n : Fin 512) (u : Fin 1), sqp (ix2 n u) = sq P n)
    (hdot : ∀ (r : Fin 256) (n : Fin 512), dotv (ix2 r n) = dot A P (row h r) n) (r : Fin 256) (n : Fin 512) :
    d2Tab sqa sqp dotv (ix2 r n) = d2 A P (row h r) n := by
  have e1 : broadcastTo S256x512 sqa broadcasts_S256x1_S256x512 (ix2 r n) = sq A (row h r) :=
    (broadcastTo_a1_ab_apply sqa _ r n).trans (hsqa r 0)
  have e2 : broadcastTo S256x512 (transpose S1x512 [1, 0] sqp transposes_S512x1_p1_0_S1x512) broadcasts_S1x512_S256x512 (ix2 r n)
      = sq P n :=
    (broadcastTo_1b_ab_apply _ _ r n).trans ((transpose_ix2_apply sqp _ 0 n).trans (hsqp n 0))
  show max (broadcastTo S256x512 sqa broadcasts_S256x1_S256x512 (ix2 r n) - twoW * dotv (ix2 r n)
      + broadcastTo S256x512 (transpose S1x512 [1, 0] sqp transposes_S512x1_p1_0_S1x512) broadcasts_S1x512_S256x512 (ix2 r n)) zeroW = _
  rw [e1, e2, hdot]
  rfl

theorem distTab_apply
    (hsqa : ∀ (r : Fin 256) (u : Fin 1), sqa (ix2 r u) = sq A (row h r))
    (hsqp : ∀ (n : Fin 512) (u : Fin 1), sqp (ix2 n u) = sq P n)
    (hdot : ∀ (r : Fin 256) (n : Fin 512), dotv (ix2 r n) = dot A P (row h r) n) (r : Fin 256) (n : Fin 512) :
    distTab sqa sqp dotv (ix2 r n) = dist A P (row h r) n := by
  have ez : bitF (cmpf .oeq (d2Tab sqa sqp dotv) (broadcast S256x512 (Scalar.ofBits .f32 0x00000000#32))) (ix2 r n)
      = zm A P (row h r) n := by
    rw [bitF_apply]
    show ind (Ideal.cmp .oeq (d2Tab sqa sqp dotv (ix2 r n)) zeroW) = _
    rw [d2Tab_apply h A P sqa sqp dotv hsqa hsqp hdot]
    rfl
  show (oneW - bitF (cmpf .oeq (d2Tab sqa sqp dotv) (broadcast S256x512 (Scalar.ofBits .f32 0x00000000#32))) (ix2 r n))
      * Ideal.sqrt (d2Tab sqa sqp dotv (ix2 r n)
        + bitF (cmpf .oeq (d2Tab sqa sqp dotv) (broadcast S256x512 (Scalar.ofBits .f32 0x00000000#32))) (ix2 r n) * epsW) = _
  rw [ez, d2Tab_apply h A P sqa sqp dotv hsqa hsqp hdot]
  rfl

/-- The masked row sum picks the distance to the row's own positive. -/
theorem diag_sum (r : Fin 256) (f : Fin 512 → EReal) :
    ∑ n : Fin 512, f n * eqm (row h r) n = f (row h r) := by
  rw [Finset.sum_eq_single (row h r)]
  · rw [eqm, ind_ofBool_true rfl, mul_one]
  · intro n _ hn
    rw [eqm, ind_ofBool_false (fun e => hn e.symm), mul_zero]
  · intro hh; exact absurd (Finset.mem_univ _) hh

/-- The kernel's hinge table at `(r, n)` is the hinge of anchor row `256·h + r` against positive `n`. -/
theorem pay2_apply
    (hsqa : ∀ (r : Fin 256) (u : Fin 1), sqa (ix2 r u) = sq A (row h r))
    (hsqp : ∀ (n : Fin 512) (u : Fin 1), sqp (ix2 n u) = sq P n)
    (hdot : ∀ (r : Fin 256) (n : Fin 512), dotv (ix2 r n) = dot A P (row h r) n) (r : Fin 256) (n : Fin 512) :
    k0_pay2 (F := Ideal) (BitVec.ofNat 32 h.val) sqa sqp dotv (ix2 r n) = trip A P (row h r) n := by
  rw [pay2_eq]
  have eown : broadcastTo S256x512
        (shapeCast S256x1
          (multiReduction (F := Ideal) .add [1] S256 (mulf (distTab sqa sqp dotv) (diagTab (BitVec.ofNat 32 h.val))) 0x00000000#32
            reduces_S256x512_S256 (.inl rfl) rfl)
          shapeCasts_S256_S256x1)
        broadcasts_S256x1_S256x512 (ix2 r n) = dist A P (row h r) (row h r) := by
    refine (broadcastTo_a1_ab_apply _ _ r n).trans ?_
    refine (Acc.shapeCast_a_a1_apply _ shapeCasts_S256_S256x1 r 0).trans ?_
    refine (Ideal.multiReduction_add_single _ _ reduces_S256x512_S256 _ _ (ix1 r)).trans ?_
    refine Eq.trans ?_ (diag_sum h r (fun n' => dist A P (row h r) n'))
    refine Finset.sum_congr rfl fun k _ => ?_
    have e : reduces_S256x512_S256.lift (ix1 r) k = ix2 r k :=
      funext fun a => Fin.ext (by match a with | ⟨0, _⟩ => rfl | ⟨1, _⟩ => rfl)
    rw [e]
    exact congrArg₂ (· * ·) (distTab_apply h A P sqa sqp dotv hsqa hsqp hdot r k) (diagTab_apply h r k)
  show max ((broadcastTo S256x512
        (shapeCast S256x1
          (multiReduction (F := Ideal) .add [1] S256 (mulf (distTab sqa sqp dotv) (diagTab (BitVec.ofNat 32 h.val))) 0x00000000#32
            reduces_S256x512_S256 (.inl rfl) rfl)
          shapeCasts_S256_S256x1)
        broadcasts_S256x1_S256x512 (ix2 r n) - distTab sqa sqp dotv (ix2 r n))
      * (oneW - diagTab (BitVec.ofNat 32 h.val) (ix2 r n))) zeroW = _
  rw [eown, distTab_apply h A P sqa sqp dotv hsqa hsqp hdot, diagTab_apply]
  rfl

end

end Cert.KernelIdeal.Hinge

end
-- ==== Proof.KernelHalf.lean ====
/-
  One row half's output block at its two meaningful entries.

  The block's entry (0, 0) holds the total of the half's hinge table and entry (0, 1) the number of its hinges above
  ε, each as a sum over the table started from zero. With the accumulators read as the products and sums of squares
  of the specification, the table is the specification's hinge at anchor rows 256·h … 256·h + 255, so the two
  entries are that half's share of the loss's numerator and of its count.
-/
import proofs.«142533_j54082228191620_2_alg».proof.Proof.KernelHinge

noncomputable section

namespace Cert.KernelIdeal.Half

open Cert.KernelIdeal Cert.KernelIdeal.Gen Cert.KernelIdeal.Block Cert.TripletSpec Cert.IndexSums
open Idealize.ShloMosaic Idealize.ShloMosaic.ValueIdx

/-- The total of a 256 × 512 table as the kernel takes it: viewed as one slab, summed over both table axes. -/
def totalOf (X : FVec Ideal S256x512 .f32) : FVec Ideal S1x1x1 .f32 :=
  shapeCast S1x1x1
    (multiReduction (F := Ideal) .add [1, 2] S1 (shapeCast S1x256x512 X shapeCasts_S256x512_S1x256x512) 0x00000000#32
      reduces_S1x256x512_S1 (.inl rfl) rfl)
    shapeCasts_S1_S1x1x1

/-- It is the double sum over rows and columns. -/
theorem totalOf_apply (X : FVec Ideal S256x512 .f32) (j : S1x1x1.Idx) :
    totalOf X j = ∑ r : Fin 256, ∑ n : Fin 512, X (ix2 r n) := by
  unfold totalOf
  refine (shapeCast_apply _ shapeCasts_S1_S1x1x1 j (ix1 (0 : Fin 1)) ?_).trans ?_
  · have h0 : (j 0).val < 1 := (j 0).isLt
    have h1 : (j 1).val < 1 := (j 1).isLt
    have h2 : (j 2).val < 1 := (j 2).isLt
    rw [Shape.rowMajor_val_one, Shape.rowMajor_val_three]
    show (0 : ℕ) = ((j 0).val * 1 + (j 1).val) * 1 + (j 2).val
    omega
  refine (Ideal.multiReduction_add_total _ _ reduces_S1x256x512_S1 (fun b => ?_) _ _ (ix1 (0 : Fin 1))).trans ?_
  · match b with | ⟨0, _⟩ => rfl
  rw [sum_idx3, Fin.sum_univ_one]
  exact Finset.sum_congr rfl fun r _ => Finset.sum_congr rfl fun n _ => shapeCast_ab_1ab_apply X _ 0 r n

theorem totalOf_extract (X : FVec Ideal S256x512 .f32) :
    extractAt ![0, 0, 0] (totalOf X) inpos_S1x1x1_p0_0_0 = ∑ r : Fin 256, ∑ n : Fin 512, X (ix2 r n) :=
  totalOf_apply X _

/-- 1 where a hinge exceeds ε, 0 elsewhere. -/
def cntTab (X : FVec Ideal S256x512 .f32) : FVec Ideal S256x512 .f32 :=
  Hinge.bitF (cmpf .ogt X (broadcast S256x512 (Scalar.ofBits .f32 0x24E69595#32)))

theorem cntTab_apply (X : FVec Ideal S256x512 .f32) (i : S256x512.Idx) :
    cntTab X i = ind (Ideal.cmp .ogt (X i) epsW) :=
  Hinge.bitF_apply _ i

/-- The mask of entry (0, 0) of the output block. -/
def mask00 : IVec S8x128 1 :=
  andi (cmpi .eq (iota .tc S8x128 32 [0] iota_S8x128_d0_w32) (broadcast S8x128 0#32))
    (cmpi .eq (iota .tc S8x128 32 [1] iota_S8x128_d1_w32) (broadcast S8x128 0#32))

/-- The mask of entry (0, 1). -/
def mask01 : IVec S8x128 1 :=
  andi (cmpi .eq (iota .tc S8x128 32 [0] iota_S8x128_d0_w32) (broadcast S8x128 0#32))
    (cmpi .eq (iota .tc S8x128 32 [1] iota_S8x128_d1_w32) (broadcast S8x128 1#32))

/-- The hinges' total is the total of the hinge table. -/
theorem pay3_eq (a0 : BitVec 32) (sqa : Vec Ideal S256x1 .f32) (sqp : Vec Ideal S512x1 .f32)
    (dotv : Vec Ideal S256x512 .f32) :
    k0_pay3 (F := Ideal) a0 sqa sqp dotv = totalOf (k0_pay2 (F := Ideal) a0 sqa sqp dotv) := rfl

/-- The output block: the total where the first mask holds, the count where the second does, zero elsewhere. -/
theorem pay1_eq (v72 : FVec Ideal S256x512 .f32) (v75 : FVec Ideal S1x1x1 .f32) :
    k0_pay1 (F := Ideal) v72 v75 =
      select mask00 (broadcast S8x128 (extractAt ![0, 0, 0] v75 inpos_S1x1x1_p0_0_0))
        (select mask01 (broadcast S8x128 (extractAt ![0, 0, 0] (totalOf (cntTab v72)) inpos_S1x1x1_p0_0_0))
          (broadcast S8x128 (Scalar.ofBits .f32 0x00000000#32))) := rfl

theorem sel_00 (a : Ideal .f32) (b : FVec Ideal S8x128 .f32) :
    select mask00 (broadcast S8x128 a) b (ix2 (0 : Fin 8) (0 : Fin 128)) = a := by
  show Scalar.select (mask00 (ix2 (0 : Fin 8) (0 : Fin 128))) a _ = a
  rw [show mask00 (ix2 (0 : Fin 8) (0 : Fin 128)) = 1#1 by decide, select_one]

theorem sel_01 (a c : Ideal .f32) (z : FVec Ideal S8x128 .f32) :
    select mask00 (broadcast S8x128 a) (select mask01 (broadcast S8x128 c) z) (ix2 (0 : Fin 8) (1 : Fin 128)) = c := by
  show Scalar.select (mask00 (ix2 (0 : Fin 8) (1 : Fin 128))) a
      (Scalar.select (mask01 (ix2 (0 : Fin 8) (1 : Fin 128))) c _) = c
  rw [show mask00 (ix2 (0 : Fin 8) (1 : Fin 128)) = 0#1 by decide, select_zero,
    show mask01 (ix2 (0 : Fin 8) (1 : Fin 128)) = 1#1 by decide, select_one]

/-- The two entries of a row half's output block: from zero, the sum of that half's hinges, and the number of them
    above ε. -/
theorem halfOut_entries (h : Fin 2) (A P : Fin 512 → Fin 4096 → EReal)
    (xa0 xa1 : Vec Ideal S256x2048 .f32) (xp0 xp1 : Vec Ideal S512x2048 .f32)
    (ha0 : ∀ (r : Fin 256) (k : Fin 2048), xa0 (ix2 r k) = A (row h r) (colLo k))
    (ha1 : ∀ (r : Fin 256) (k : Fin 2048), xa1 (ix2 r k) = A (row h r) (colHi k))
    (hp0 : ∀ (n : Fin 512) (k : Fin 2048), xp0 (ix2 n k) = P n (colLo k))
    (hp1 : ∀ (n : Fin 512) (k : Fin 2048), xp1 (ix2 n k) = P n (colHi k)) :
    halfOut (F := Ideal) (BitVec.ofNat 32 h.val) xa0 xa1 xp0 xp1 (ix2 (0 : Fin 8) (0 : Fin 128))
        = zeroW + ∑ r : Fin 256, ∑ n : Fin 512, trip A P (row h r) n
    ∧ halfOut (F := Ideal) (BitVec.ofNat 32 h.val) xa0 xa1 xp0 xp1 (ix2 (0 : Fin 8) (1 : Fin 128))
        = zeroW + ∑ r : Fin 256, ∑ n : Fin 512, ind (Ideal.cmp .ogt (trip A P (row h r) n) epsW) := by
  have htab : ∀ (r : Fin 256) (n : Fin 512),
      k0_pay2 (F := Ideal) (BitVec.ofNat 32 h.val) (accSqa xa0 xa1) (accSqp xp0 xp1) (accDot xa0 xa1 xp0 xp1) (ix2 r n)
        = trip A P (row h r) n :=
    Hinge.pay2_apply h A P _ _ _ (Acc.accSqa_apply h A xa0 xa1 ha0 ha1) (Acc.accSqp_apply P xp0 xp1 hp0 hp1)
      (Acc.accDot_apply h A P xa0 xa1 xp0 xp1 ha0 ha1 hp0 hp1)
  unfold halfOut
  rw [pay1_eq, pay3_eq]
  refine ⟨(sel_00 _ _).trans ?_, (sel_01 _ _ _).trans ?_⟩
  · refine (totalOf_extract _).trans ?_
    rw [show zeroW = 0 from Ideal.ofBits_zero_f32, zero_add]
    exact Finset.sum_congr rfl fun r _ => Finset.sum_congr rfl fun n _ => htab r n
  · refine (totalOf_extract _).trans ?_
    rw [show zeroW = 0 from Ideal.ofBits_zero_f32, zero_add]
    refine Finset.sum_congr rfl fun r _ => Finset.sum_congr rfl fun n _ => ?_
    refine (cntTab_apply _ _).trans ?_
    rw [htab r n]

end Cert.KernelIdeal.Half

end
-- ==== Proof.TripletSums.lean ====
/-
  The sums of the triplet loss, arranged over all triples (anchor, positive, negative).

  The reference forms, for every triple (a, p, n), the hinge max (m(a,p,n) · (dist a p − dist a n)) 0, where the
  validity bit m(a,p,n) is 1 exactly when p is the anchor's own row and n is not. Off the diagonal p = a the bit is 0,
  and 0 · x = 0 for every extended real x, so the hinge vanishes; on it the hinge is the specification's trip a n (for
  n = a both are max 0 0, since the specification multiplies by 1 − 1 = 0 there). Hence the sum over all triples is the
  specification's double sum, and likewise the count of hinges above ε, because ε is not negative and so a vanishing
  hinge is never counted.

  The count is taken in 32-bit integers: a wrapping sum of words that are 0 or 1. Such a sum is the word of the
  natural-number sum of the bits; with at most 2²⁷ terms that number is below 2³¹, so read as a signed integer and
  then as a float it is the sum of the bits read as floats.
-/
import Idealize.ShloMosaic.PureOps.Reduce
import proofs.«142533_j54082228191620_2_alg».proof.Proof.IndexSums

noncomputable section

namespace Cert.TripletSums

open Idealize.ShloMosaic Cert.TripletSpec Cert.IndexSums

/-! ## The validity bit -/

/-- Row numbers below 512, written as 32-bit words, are equal exactly when the rows are. -/
theorem beq_ofNat (a b : Fin 512) : (BitVec.ofNat 32 a.val == BitVec.ofNat 32 b.val) = decide (a = b) := by
  by_cases h : a = b
  · subst h; simp
  · have hne : BitVec.ofNat 32 a.val ≠ BitVec.ofNat 32 b.val := by
      intro e
      have e' := congrArg BitVec.toNat e
      simp only [BitVec.toNat_ofNat] at e'
      have ha := a.isLt
      have hb := b.isLt
      exact h (Fin.ext (by omega))
    simp [h, hne]

/-- The validity bit of a triple: the positive is the anchor's own row and the negative is not. -/
def maskBit (a p n : Fin 512) : BitVec 1 :=
  IntOp.andi (BitVec.ofBool (decide (a = p))) (~~~ BitVec.ofBool (decide (a = n)))

theorem andi_not_ofBool (x y : Bool) :
    IntOp.andi (BitVec.ofBool x) (~~~ BitVec.ofBool y) = BitVec.ofBool (x && !y) := by
  cases x <;> cases y <;> decide

theorem maskBit_of_ne {a p : Fin 512} (h : p ≠ a) (n : Fin 512) : maskBit a p n = 0#1 := by
  unfold maskBit
  rw [andi_not_ofBool, decide_eq_false (Ne.symm h)]
  rfl

theorem maskBit_self_self (a : Fin 512) : maskBit a a a = 0#1 := by
  unfold maskBit
  rw [andi_not_ofBool, decide_eq_true rfl]
  rfl

theorem maskBit_self_ne {a n : Fin 512} (h : n ≠ a) : maskBit a a n = 1#1 := by
  unfold maskBit
  rw [andi_not_ofBool, decide_eq_true rfl, decide_eq_false (Ne.symm h)]
  rfl

/-! ## The words of zero, one and ε -/

theorem zeroW_eq : zeroW = 0 := Ideal.ofBits_zero_f32
theorem oneW_eq : oneW = 1 := Ideal.ofBits_one_f32

theorem one_sub_one : (1 : EReal) - 1 = 0 := by
  rw [show (1 : EReal) = ((1 : ℝ) : EReal) by norm_cast, ← EReal.coe_sub, sub_self, EReal.coe_zero]

/-- The word written for 1e-16 has its sign bit clear: it denotes a number that is not negative. -/
theorem epsW_not_neg : ¬ epsW < 0 := by
  have h : (0 : EReal) ≤ epsW := by
    simp [epsW, Ideal.ofBits, Ideal.ieee, -EReal.coe_mul]
  exact not_lt.mpr h

/-! ## The hinge of a triple -/

variable (A P : Fin 512 → Fin 4096 → EReal)

/-- The hinge of the triple (a, p, n) as the reference forms it. -/
def term (a p n : Fin 512) : EReal := max (ind (maskBit a p n) * (dist A P a p - dist A P a n)) zeroW

/-- Off the diagonal p = a the hinge vanishes; on it, it is the specification's hinge of a against n. -/
theorem term_eq (a p n : Fin 512) : term A P a p n = if p = a then trip A P a n else 0 := by
  unfold term
  by_cases hp : p = a
  · subst hp
    rw [if_pos rfl]
    unfold trip eqm
    by_cases hn : n = p
    · subst hn
      rw [maskBit_self_self, ind_zero, zero_mul, ind_ofBool_true rfl, oneW_eq, one_sub_one, mul_zero]
    · rw [maskBit_self_ne hn, ind_one, one_mul, ind_ofBool_false (Ne.symm hn), oneW_eq, sub_zero, mul_one]
  · rw [if_neg hp, maskBit_of_ne hp, ind_zero, zero_mul, zeroW_eq, max_self]

/-- The sum of the hinges over all triples is the specification's double sum. -/
theorem sum_term : ∑ a : Fin 512, ∑ p : Fin 512, ∑ n : Fin 512, term A P a p n = lossSum A P := by
  unfold lossSum
  refine Finset.sum_congr rfl fun a _ => ?_
  rw [Finset.sum_comm]
  refine Finset.sum_congr rfl fun n _ => ?_
  simp only [term_eq]
  rw [Finset.sum_ite_eq' Finset.univ a (fun _ => trip A P a n), if_pos (Finset.mem_univ a)]

/-! ## The count of hinges above ε -/

/-- The bit "the hinge of (a, p, n) exceeds ε". -/
def cbit (a p n : Fin 512) : BitVec 1 := Ideal.cmp .ogt (term A P a p n) epsW

/-- A vanishing hinge is not counted, ε not being negative. -/
theorem ind_cbit (a p n : Fin 512) :
    ind (cbit A P a p n) = if p = a then ind (Ideal.cmp .ogt (trip A P a n) epsW) else 0 := by
  unfold cbit
  rw [term_eq]
  by_cases hp : p = a
  · rw [if_pos hp, if_pos hp]
  · rw [if_neg hp, if_neg hp]
    exact ind_ofBool_false epsW_not_neg

/-- The sum of the counting bits over all triples is the specification's count. -/
theorem sum_cbit : ∑ a : Fin 512, ∑ p : Fin 512, ∑ n : Fin 512, ind (cbit A P a p n) = lossCnt A P := by
  unfold lossCnt
  refine Finset.sum_congr rfl fun a _ => ?_
  rw [Finset.sum_comm]
  refine Finset.sum_congr rfl fun n _ => ?_
  simp only [ind_cbit]
  rw [Finset.sum_ite_eq' Finset.univ a (fun _ => ind (Ideal.cmp .ogt (trip A P a n) epsW)),
    if_pos (Finset.mem_univ a)]

/-! ## A 32-bit wrapping sum of zeros and ones -/

/-- The real sum of finitely many reals, read in the extended reals, is the sum of the terms read there. -/
theorem coe_sum {ι : Type*} (s : Finset ι) (g : ι → ℝ) :
    ((∑ j ∈ s, g j : ℝ) : EReal) = ∑ j ∈ s, (g j : EReal) := by
  induction s using Finset.cons_induction with
  | empty => simp
  | cons a s ha ih => rw [Finset.sum_cons, Finset.sum_cons, EReal.coe_add, ih]

/-- Adding up, with wrapping 32-bit addition from zero, one-bit words widened to 32 bits gives the word of the
    natural-number sum of the bits. -/
theorem fold_addi_eq {ι : Type*} (s : Finset ι) (f : ι → BitVec 1) :
    s.fold IntOp.addi 0#32 (fun j => (f j).setWidth 32) = BitVec.ofNat 32 (∑ j ∈ s, (f j).toNat) := by
  induction s using Finset.cons_induction with
  | empty => rfl
  | cons a s ha ih =>
    rw [Finset.fold_cons, Finset.sum_cons, ih, BitVec.ofNat_add, BitVec.ofNat_toNat]
    rfl

/-- When fewer than 2³¹ bits are set, the wrapping sum read as a signed integer and then as a float is the sum of
    the bits read as floats. -/
theorem sitofp_fold {ι : Type*} [Fintype ι] (f : ι → BitVec 1) (hN : ∑ j, (f j).toNat < 2147483648) :
    ((((Finset.univ : Finset ι).fold IntOp.addi 0#32 (fun j => (f j).setWidth 32)).toInt : ℝ) : EReal)
      = ∑ j, ind (f j) := by
  have hmod : (BitVec.ofNat 32 (∑ j, (f j).toNat)).toNat = ∑ j, (f j).toNat := by
    rw [BitVec.toNat_ofNat]
    exact Nat.mod_eq_of_lt (by omega)
  rw [fold_addi_eq, BitVec.toInt_eq_toNat_of_lt (by rw [hmod]; omega), hmod, Int.cast_natCast, Nat.cast_sum,
    coe_sum]
  rfl

/-- Among 512³ bits fewer than 2³¹ are set. -/
theorem sum_bits_lt (g : Fin 512 → Fin 512 → Fin 512 → BitVec 1) :
    ∑ a : Fin 512, ∑ p : Fin 512, ∑ n : Fin 512, (g a p n).toNat < 2147483648 := by
  have hle : ∑ a : Fin 512, ∑ p : Fin 512, ∑ n : Fin 512, (g a p n).toNat
      ≤ ∑ _a : Fin 512, ∑ _p : Fin 512, ∑ _n : Fin 512, 1 :=
    Finset.sum_le_sum fun a _ => Finset.sum_le_sum fun p _ => Finset.sum_le_sum fun n _ => by
      have := (g a p n).isLt
      omega
  have hc : ∑ _a : Fin 512, ∑ _p : Fin 512, ∑ _n : Fin 512, 1 = 134217728 := by simp
  omega

end Cert.TripletSums

end
-- ==== Proof.HalvesSum.lean ====
/-
  The loss from the two row halves.

  The 512 anchor rows are the first 256 followed by the last 256, so a sum over all rows is the sum over the first
  half plus the sum over the second. Each half's partial total, and each half's partial count of hinges above ε, is
  accumulated from the word of zero, which is 0; adding the two halves gives the specification's total and count, and
  their quotient, with ε added to the count, the loss.
-/
import proofs.«142533_j54082228191620_2_alg».proof.Proof.KernelBlock
import proofs.«142533_j54082228191620_2_alg».proof.Proof.TripletSums

noncomputable section

namespace Cert.HalvesSum

open Idealize.ShloMosaic Cert.TripletSpec Cert.TripletSums Cert.KernelIdeal.Block

/-- A sum over the 512 rows is the sum over the first 256 plus the sum over the last 256. -/
theorem sum_rows {M : Type*} [AddCommMonoid M] (f : Fin 512 → M) :
    ∑ a : Fin 512, f a = ∑ r : Fin 256, f (row 0 r) + ∑ r : Fin 256, f (row 1 r) := by
  have h0 : ∀ r : Fin 256, Fin.castAdd 256 r = row 0 r := fun r =>
    Fin.ext (by show r.val = 256 * 0 + r.val; omega)
  have h1 : ∀ r : Fin 256, Fin.natAdd 256 r = row 1 r := fun r =>
    Fin.ext (by show 256 + r.val = 256 * 1 + r.val; omega)
  rw [show (∑ a : Fin 512, f a) = ∑ a : Fin (256 + 256), f a from rfl, Fin.sum_univ_add]
  simp only [h0, h1]

variable (A P : Fin 512 → Fin 4096 → EReal)

/-- The two halves' partial totals add up to the sum of all hinges. -/
theorem sum_halves :
    (zeroW + ∑ r : Fin 256, ∑ n : Fin 512, trip A P (row 0 r) n)
      + (zeroW + ∑ r : Fin 256, ∑ n : Fin 512, trip A P (row 1 r) n) = lossSum A P := by
  rw [zeroW_eq, zero_add, zero_add]
  unfold lossSum
  exact (sum_rows fun a => ∑ n : Fin 512, trip A P a n).symm

/-- The two halves' partial counts add up to the count of hinges above ε. -/
theorem cnt_halves :
    (zeroW + ∑ r : Fin 256, ∑ n : Fin 512, ind (Ideal.cmp .ogt (trip A P (row 0 r) n) epsW))
      + (zeroW + ∑ r : Fin 256, ∑ n : Fin 512, ind (Ideal.cmp .ogt (trip A P (row 1 r) n) epsW))
      = lossCnt A P := by
  rw [zeroW_eq, zero_add, zero_add]
  unfold lossCnt
  exact (sum_rows fun a => ∑ n : Fin 512, ind (Ideal.cmp .ogt (trip A P a n) epsW)).symm

/-- The quotient of the added partial totals by the added partial counts plus ε is the loss. -/
theorem kernel_loss (s0 s1 c0 c1 : EReal)
    (hs0 : s0 = zeroW + ∑ r : Fin 256, ∑ n : Fin 512, trip A P (row 0 r) n)
    (hs1 : s1 = zeroW + ∑ r : Fin 256, ∑ n : Fin 512, trip A P (row 1 r) n)
    (hc0 : c0 = zeroW + ∑ r : Fin 256, ∑ n : Fin 512, ind (Ideal.cmp .ogt (trip A P (row 0 r) n) epsW))
    (hc1 : c1 = zeroW + ∑ r : Fin 256, ∑ n : Fin 512, ind (Ideal.cmp .ogt (trip A P (row 1 r) n) epsW)) :
    Ideal.div (s0 + s1) ((c0 + c1) + epsW) = loss A P := by
  rw [hs0, hs1, hc0, hc1, sum_halves, cnt_halves]
  rfl

end Cert.HalvesSum

end
-- ==== Proof.KernelValue.lean ====
/-
  The kernel's run, read: its result is the triplet loss of its two argument tables.

  Each row half's output block holds, at entries (0, 0) and (0, 1), that half's sum of hinges and its count of hinges
  above ε (the arithmetic read at an index, over the argument arrays' blocks at the half's two grid points). The
  output array holds the two blocks at rows 0 and 8, the host lines add the halves and divide, and the two halves'
  rows are all 512 rows: the quotient is the loss.
-/
import proofs.«142533_j54082228191620_2_alg».proof.Proof.KernelArray
import proofs.«142533_j54082228191620_2_alg».proof.Proof.KernelTail
import proofs.«142533_j54082228191620_2_alg».proof.Proof.KernelHalf
import proofs.«142533_j54082228191620_2_alg».proof.Proof.HalvesSum

set_option maxRecDepth 16384

noncomputable section

namespace Cert.KernelIdeal.RunValue

open Cert.KernelIdeal Cert.KernelIdeal.Gen Cert.KernelIdeal.Block Cert.KernelIdeal.Arr Cert.KernelIdeal.Tail Cert.TripletSpec
open Idealize.ShloMosaic Idealize.ShloMosaic.TcCoe Idealize.ShloMosaic.ValueIdx Idealize.SL Idealize.SL.Sem
open Idealize.ShloMosaic.Pipeline (Dat)

variable (m : (ℓ : Loc nD τ sig) → Buf (Elt Ideal) ℓ) (ρ : Dev nD → PrngReg)

/-- The anchors, row by row. -/
def tabA (c : Dev nD) : Fin 512 → Fin 4096 → EReal := fun a k => m ((c : Thread nD τ).loc main_arg0) (ix2 a k)

/-- The positives, row by row. -/
def tabP (c : Dev nD) : Fin 512 → Fin 4096 → EReal := fun a k => m ((c : Thread nD τ).loc main_arg1) (ix2 a k)

/-- The first row half's block: the sum and the count of the hinges of anchor rows 0 … 255. -/
theorem half0 (c : Dev nD) :
    halfBlock m c 0 (ix2 (0 : Fin 8) (0 : Fin 128)) = zeroW + ∑ r : Fin 256, ∑ n : Fin 512, trip (tabA m c) (tabP m c) (row 0 r) n
    ∧ halfBlock m c 0 (ix2 (0 : Fin 8) (1 : Fin 128))
        = zeroW + ∑ r : Fin 256, ∑ n : Fin 512, ind (Ideal.cmp .ogt (trip (tabA m c) (tabP m c) (row 0 r) n) epsW) :=
  Half.halfOut_entries 0 (tabA m c) (tabP m c) (iblk m c 0 t0_0) (iblk m c 0 t0_1) (iblk m c 1 t0_0) (iblk m c 1 t0_1)
    (fun r k => anchors_block m c t0_0 r k (row 0 r) (colLo k) (by show 256 * 0 + r.val = 256 * (0 / 2) + r.val; omega)
      (by show k.val = 2048 * (0 % 2) + k.val; omega))
    (fun r k => anchors_block m c t0_1 r k (row 0 r) (colHi k) (by show 256 * 0 + r.val = 256 * (1 / 2) + r.val; omega)
      (by show 2048 + k.val = 2048 * (1 % 2) + k.val; omega))
    (fun n k => positives_block m c t0_0 n k (colLo k) (by show k.val = 2048 * (0 % 2) + k.val; omega))
    (fun n k => positives_block m c t0_1 n k (colHi k) (by show 2048 + k.val = 2048 * (1 % 2) + k.val; omega))

/-- The second row half's block: the same of anchor rows 256 … 511. -/
theorem half1 (c : Dev nD) :
    halfBlock m c 1 (ix2 (0 : Fin 8) (0 : Fin 128)) = zeroW + ∑ r : Fin 256, ∑ n : Fin 512, trip (tabA m c) (tabP m c) (row 1 r) n
    ∧ halfBlock m c 1 (ix2 (0 : Fin 8) (1 : Fin 128))
        = zeroW + ∑ r : Fin 256, ∑ n : Fin 512, ind (Ideal.cmp .ogt (trip (tabA m c) (tabP m c) (row 1 r) n) epsW) :=
  Half.halfOut_entries 1 (tabA m c) (tabP m c) (iblk m c 0 t0_2) (iblk m c 0 t0_3) (iblk m c 1 t0_2) (iblk m c 1 t0_3)
    (fun r k => anchors_block m c t0_2 r k (row 1 r) (colLo k) (by show 256 * 1 + r.val = 256 * (2 / 2) + r.val; omega)
      (by show k.val = 2048 * (2 % 2) + k.val; omega))
    (fun r k => anchors_block m c t0_3 r k (row 1 r) (colHi k) (by show 256 * 1 + r.val = 256 * (3 / 2) + r.val; omega)
      (by show 2048 + k.val = 2048 * (3 % 2) + k.val; omega))
    (fun n k => positives_block m c t0_2 n k (colLo k) (by show k.val = 2048 * (2 % 2) + k.val; omega))
    (fun n k => positives_block m c t0_3 n k (colHi k) (by show 2048 + k.val = 2048 * (3 % 2) + k.val; omega))

/-- What the result buffer holds after the host lines: the loss. -/
theorem result_eq (c : Dev nD) :
    Pipeline.afterTail₀ cfgs (dats m) 0 (V0 m) [hostOps1] c main_v12 = fun _ => loss (tabA m c) (tabP m c) := by
  rw [tail_eq]
  funext j
  rw [tail_apply]
  obtain ⟨s0, c0⟩ := half0 m c
  obtain ⟨s1, c1⟩ := half1 m c
  rw [final_lo m c (ix2 (0 : Fin 16) (0 : Fin 128)) (ix2 (0 : Fin 8) (0 : Fin 128)) rfl rfl,
    final_hi m c (ix2 (8 : Fin 16) (0 : Fin 128)) (ix2 (0 : Fin 8) (0 : Fin 128)) rfl rfl,
    final_lo m c (ix2 (0 : Fin 16) (1 : Fin 128)) (ix2 (0 : Fin 8) (1 : Fin 128)) rfl rfl,
    final_hi m c (ix2 (8 : Fin 16) (1 : Fin 128)) (ix2 (0 : Fin 8) (1 : Fin 128)) rfl rfl]
  exact Cert.HalvesSum.kernel_loss (tabA m c) (tabP m c) _ _ _ _ s0 s1 c0 c1

/-- The run: every weakly fair execution terminates with the result at the loss of the two argument tables and the
    arguments unchanged. -/
theorem run : θ_run defs (onTc (τ := τ) (main (F := Ideal))) ⟨m, fun _ => 0, ρ⟩ (fun r => ∀ c : Dev nD,
      r.2.mem ((c.tc : Thread nD τ).loc main_v12) = (fun _ => loss (tabA m c) (tabP m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v12 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefDist.lean ====
/-
  The reference's table of distances, read at a pair of coordinates.

  For anchors A and positives P (the two argument tables read row by row) the reference forms the table of products
  A·Pᵀ, the two vectors of row sums of squares, the clamped squared distance
      d2 a n = max (|A a|² − 2·(A a · P n) + |P n|²) 0,
  the mask of its zeros and, from these, the distance (1 − mask)·√(d2 + mask·ε). Each stage is read at explicit
  coordinates and identified with the corresponding function of the common specification.
-/
import proofs.«142533_j54082228191620_2_alg».proof.Proof.Gen.ReferenceIdeal.Read
import proofs.«142533_j54082228191620_2_alg».proof.Proof.IndexSums

noncomputable section

namespace Cert.ReferenceIdeal.RefDist

open Cert.ReferenceIdeal Cert.ReferenceIdeal.Gen Cert.ReferenceIdeal.Read Idealize.ShloMosaic Idealize.ShloMosaic.ValueIdx
  Cert.TripletSpec

variable (x0 x1 : (⟨S512x4096, .f32⟩ : BufTy).Contents (Elt Ideal))
variable (A P : Fin 512 → Fin 4096 → EReal)

/-- The anchors' row sums of squares. -/
theorem sqA_eq (hA : ∀ a k, x0 (ix2 a k) = A a k) (a : Fin 512) :
    val_main_v3 (F := Ideal) x0 (ix1 a) = TripletSpec.sq A a := by
  rw [val_main_v3_apply, val_main_cst_apply, Ideal.ofBits_def, Ideal.ofBits_zero_f32, zero_add]
  unfold TripletSpec.sq
  refine Finset.sum_congr rfl fun k _ => ?_
  rw [val_main_v2_apply, Ideal.mulf_def,
    show idx_main_v3 (ix1 a) k = ix2 a k from
      funext fun d => Fin.ext (by match d with | ⟨0, _⟩ => rfl | ⟨1, _⟩ => rfl), hA]

/-- The positives' row sums of squares. -/
theorem sqP_eq (hP : ∀ a k, x1 (ix2 a k) = P a k) (n : Fin 512) :
    val_main_v5 (F := Ideal) x1 (ix1 n) = TripletSpec.sq P n := by
  rw [val_main_v5_apply, val_main_cst_0_apply, Ideal.ofBits_def, Ideal.ofBits_zero_f32, zero_add]
  unfold TripletSpec.sq
  refine Finset.sum_congr rfl fun k _ => ?_
  rw [val_main_v4_apply, Ideal.mulf_def,
    show idx_main_v5 (ix1 n) k = ix2 n k from
      funext fun d => Fin.ext (by match d with | ⟨0, _⟩ => rfl | ⟨1, _⟩ => rfl), hP]

/-- The table of products of an anchor row with a positive row. -/
theorem dot_eq (hA : ∀ a k, x0 (ix2 a k) = A a k) (hP : ∀ a k, x1 (ix2 a k) = P a k) (a n : Fin 512) :
    val_main_v1 (F := Ideal) x0 x1 (ix2 a n) = TripletSpec.dot A P a n := by
  rw [val_main_v1_apply]
  unfold TripletSpec.dot
  refine Finset.sum_congr rfl fun k _ => ?_
  rw [val_main_v0_apply,
    show lidx_main_v1 (ix2 a n) k = ix2 a k from
      funext fun d => Fin.ext (by match d with | ⟨0, _⟩ => rfl | ⟨1, _⟩ => rfl),
    show idx_main_v0 (ridx_main_v1 (ix2 a n) k) = ix2 n k from
      funext fun d => Fin.ext (by match d with | ⟨0, _⟩ => rfl | ⟨1, _⟩ => rfl), hA, hP]

/-- The clamped squared distance between an anchor row and a positive row. -/
theorem d2_eq (hA : ∀ a k, x0 (ix2 a k) = A a k) (hP : ∀ a k, x1 (ix2 a k) = P a k) (a n : Fin 512) :
    val_main_v15 (F := Ideal) x0 x1 (ix2 a n) = d2 A P a n := by
  rw [val_main_v15_apply, val_main_v14_apply, val_main_cst_2_apply, val_main_v13_apply, val_main_v10_apply,
    val_main_v9_apply, val_main_v6_apply, val_main_v8_apply, val_main_v7_apply, val_main_cst_1_apply,
    val_main_v12_apply, val_main_v11_apply,
    show idx_main_v6 (idx_main_v9 (ix2 a n)) = ix1 a from
      funext fun d => Fin.ext (by match d with | ⟨0, _⟩ => rfl),
    show idx_main_v11 (idx_main_v12 (ix2 a n)) = ix1 n from
      funext fun d => Fin.ext (by match d with | ⟨0, _⟩ => rfl),
    sqA_eq x0 A hA, sqP_eq x1 P hP, dot_eq x0 x1 A P hA hP]
  rfl

/-- The distance between an anchor row and a positive row: zero where the clamped squared distance vanishes, its
    square root elsewhere. The mask of zeros is the comparison's bit read as a float. -/
theorem dist_eq (hA : ∀ a k, x0 (ix2 a k) = A a k) (hP : ∀ a k, x1 (ix2 a k) = P a k) (a n : Fin 512) :
    val_main_v25 (F := Ideal) x0 x1 (ix2 a n) = dist A P a n := by
  rw [val_main_v25_apply, val_main_v20_apply, val_main_v19_apply, val_main_cst_4_apply, val_main_v24_apply,
    val_main_v23_apply, val_main_v22_apply, val_main_v21_apply, val_main_cst_5_apply, val_main_v18_apply,
    val_main_v17_apply, val_main_v16_apply, val_main_cst_3_apply, d2_eq x0 x1 A P hA hP]
  rfl

end Cert.ReferenceIdeal.RefDist

end
-- ==== Proof.RefTerm.lean ====
/-
  The reference's hinge of a triple (anchor, positive, negative), and its counting bit, read at explicit coordinates.

  The validity mask compares the row numbers 0 … 511, written as 32-bit words, of the anchor with the positive and
  with the negative; the difference of distances is read from the table of distances at (a, p) and at (a, n).
-/
import proofs.«142533_j54082228191620_2_alg».proof.Proof.RefDist
import proofs.«142533_j54082228191620_2_alg».proof.Proof.TripletSums

noncomputable section

namespace Cert.ReferenceIdeal.RefTerm

open Cert.ReferenceIdeal Cert.ReferenceIdeal.Gen Cert.ReferenceIdeal.Read Idealize.ShloMosaic Idealize.ShloMosaic.ValueIdx
  Cert.TripletSpec Cert.TripletSums Cert.ReferenceIdeal.RefDist

/-- The table "row a is row b": the comparison of the two row numbers as 32-bit words. -/
theorem eqbit (a b : Fin 512) : val_main_v36 (F := Ideal) (ix2 a b) = BitVec.ofBool (decide (a = b)) := by
  simp only [val_main_v36_apply, val_main_v34_apply, val_main_v32_apply, val_main_v35_apply, val_main_v33_apply,
    val_main_v31_apply]
  exact congrArg BitVec.ofBool (beq_ofNat a b)

variable (x0 x1 : (⟨S512x4096, .f32⟩ : BufTy).Contents (Elt Ideal))
variable (A P : Fin 512 → Fin 4096 → EReal)

/-- The reference's hinge at the triple (a, p, n). -/
theorem term_at (hA : ∀ a k, x0 (ix2 a k) = A a k) (hP : ∀ a k, x1 (ix2 a k) = P a k) (a p n : Fin 512) :
    val_main_v45 (F := Ideal) x0 x1 (ix3 a p n) = term A P a p n := by
  rw [val_main_v45_apply, val_main_call0_v0_apply, val_main_call0_cst_apply, val_main_v44_apply, val_main_v43_apply,
    val_main_v42_apply, val_main_v40_apply, val_main_v37_apply, val_main_v41_apply, val_main_v39_apply,
    val_main_v38_apply, val_main_v30_apply, val_main_v28_apply, val_main_v26_apply, val_main_v29_apply,
    val_main_v27_apply,
    show idx_main_v37 (idx_main_v40 (ix3 a p n)) = ix2 a p from
      funext fun d => Fin.ext (by match d with | ⟨0, _⟩ => rfl | ⟨1, _⟩ => rfl),
    show idx_main_v38 (idx_main_v41 (ix3 a p n)) = ix2 a n from
      funext fun d => Fin.ext (by match d with | ⟨0, _⟩ => rfl | ⟨1, _⟩ => rfl),
    show idx_main_v26 (idx_main_v28 (ix3 a p n)) = ix2 a p from
      funext fun d => Fin.ext (by match d with | ⟨0, _⟩ => rfl | ⟨1, _⟩ => rfl),
    show idx_main_v27 (idx_main_v29 (ix3 a p n)) = ix2 a n from
      funext fun d => Fin.ext (by match d with | ⟨0, _⟩ => rfl | ⟨1, _⟩ => rfl),
    eqbit a p, eqbit a n, dist_eq x0 x1 A P hA hP a p, dist_eq x0 x1 A P hA hP a n]
  rfl

/-- The reference's counting bit at the triple (a, p, n): the hinge exceeds ε. -/
theorem cbit_at (hA : ∀ a k, x0 (ix2 a k) = A a k) (hP : ∀ a k, x1 (ix2 a k) = P a k) (a p n : Fin 512) :
    val_main_v47 (F := Ideal) x0 x1 (ix3 a p n) = cbit A P a p n := by
  rw [val_main_v47_apply, val_main_v46_apply, val_main_cst_6_apply, term_at x0 x1 A P hA hP a p n]
  rfl

end Cert.ReferenceIdeal.RefTerm

end
-- ==== Proof.RefLoss.lean ====
/-
  The reference's loss is the common specification's loss of the two argument tables.

  The float total of the hinges over all triples is the specification's double sum; the 32-bit integer count of the
  hinges above ε, read as a float, is the specification's count; the loss is the quotient of the total by the count
  plus ε.
-/
import proofs.«142533_j54082228191620_2_alg».proof.Proof.RefTerm

noncomputable section

namespace Cert.ReferenceIdeal.RefValue

open Cert.ReferenceIdeal Cert.ReferenceIdeal.Gen Cert.ReferenceIdeal.Read Idealize.ShloMosaic Idealize.ShloMosaic.ValueIdx
  Cert.TripletSpec Cert.TripletSums Cert.IndexSums Cert.ReferenceIdeal.RefTerm

/-- The scalar shape has one index. -/
instance : Subsingleton S_.Idx := ⟨fun _ _ => funext fun d => d.elim0⟩

variable (x0 x1 : (⟨S512x4096, .f32⟩ : BufTy).Contents (Elt Ideal))
variable (A P : Fin 512 → Fin 4096 → EReal)

/-- The float total of the hinges over all triples. -/
theorem total_at (hA : ∀ a k, x0 (ix2 a k) = A a k) (hP : ∀ a k, x1 (ix2 a k) = P a k) (i : S_.Idx) :
    val_main_v51 (F := Ideal) x0 x1 i = lossSum A P := by
  rw [val_main_v51_apply, val_main_cst_7_apply, Ideal.ofBits_def, Ideal.ofBits_zero_f32, zero_add, sum_idx3]
  simp only [term_at x0 x1 A P hA hP]
  exact sum_term A P

/-- The integer count of the hinges above ε is the wrapping sum, from zero, of the counting bits widened to 32 bits,
    over every triple: all triples reduce to the one index of the scalar result. -/
theorem count_fold (i : S_.Idx) :
    val_main_v49 (F := Ideal) x0 x1 i
      = (Finset.univ : Finset S512x512x512.Idx).fold IntOp.addi 0#32
          (fun j => (val_main_v47 (F := Ideal) x0 x1 j).setWidth 32) := by
  unfold val_main_v49
  rw [Host.reduce_eq_fold, Finset.filter_true_of_mem (fun j _ => Subsingleton.elim _ _), val_main_c_apply,
    show val_main_v48 (F := Ideal) x0 x1 = fun j => (val_main_v47 (F := Ideal) x0 x1 j).setWidth 32 from
      funext (val_main_v48_apply x0 x1)]

/-- The count read as a float. -/
theorem count_at (hA : ∀ a k, x0 (ix2 a k) = A a k) (hP : ∀ a k, x1 (ix2 a k) = P a k) (i : S_.Idx) :
    val_main_v50 (F := Ideal) x0 x1 i = lossCnt A P := by
  rw [val_main_v50_apply]
  show (((val_main_v49 (F := Ideal) x0 x1 i).toInt : ℝ) : EReal) = _
  rw [count_fold, sitofp_fold _ (by rw [sum_idx3]; exact sum_bits_lt _), sum_idx3]
  simp only [cbit_at x0 x1 A P hA hP]
  exact sum_cbit A P

/-- The reference's result for argument tables whose rows are A and P. -/
theorem ref_loss_of (hA : ∀ a k, x0 (ix2 a k) = A a k) (hP : ∀ a k, x1 (ix2 a k) = P a k) (i : S_.Idx) :
    val_main_v53 (F := Ideal) x0 x1 i = loss A P := by
  rw [val_main_v53_apply, val_main_v52_apply, val_main_cst_8_apply, total_at x0 x1 A P hA hP,
    count_at x0 x1 A P hA hP]
  rfl

/-- The reference computes the triplet loss of its two arguments read row by row. -/
theorem ref_loss (x0 x1 : (⟨Cert.ReferenceIdeal.S512x4096, .f32⟩ : BufTy).Contents (Elt Ideal))
    (i : Cert.ReferenceIdeal.S_.Idx) :
    Cert.ReferenceIdeal.Read.val_main_v53 (F := Ideal) x0 x1 i
      = Cert.TripletSpec.loss (fun a k => x0 (ValueIdx.ix2 a k)) (fun a k => x1 (ValueIdx.ix2 a k)) :=
  ref_loss_of x0 x1 _ _ (fun _ _ => rfl) (fun _ _ => rfl) i

end Cert.ReferenceIdeal.RefValue

end
-- ==== Proof.lean ====
/-
  A two-core triplet-loss kernel against its jnp reference, over the extended reals.

  For anchors a and positives p (512 rows of 4096 numbers each) both programs compute
    dist[i, j] = (1 − z) · √(max(|a_i|² − 2 a_i·p_j + |p_j|², 0) + z · ε),   z = 1 where the clamped square vanishes,
  and the loss (Σ hinges) / (#{hinges > ε} + ε) of the hinges max(dist[i, i] − dist[i, n], 0), n ≠ i.
  The reference builds the full 512 × 512 × 512 tensor dist[i, q] − dist[i, n] and masks it by (q = i) ∧ (n ≠ i); a masked
  entry is 0 · x = 0 and contributes nothing to the sum nor — ε being non-negative — to the count, so what is left is
  the 512 × 512 table of hinges with the diagonal dropped. The kernel computes that table directly, half of the
  anchor rows at a time: it accumulates the products and the two families of sums of squares over two column blocks,
  reads the diagonal distance back as a masked row sum (a sum with one non-zero term), forms the hinges, and writes
  each half's sum and count; the host adds the two halves and divides. Sums over the extended reals may be regrouped
  freely (addition there is commutative and associative), and every other step is the same operation on both sides,
  so the two results are one extended real whatever the inputs: the finiteness of the inputs is never used.

  The kernel's run is read off its generated frame run (what each control case leaves in the accumulators and in the
  output block, then the output array, then the host lines); the reference's run and its operations read at an index
  are generated modules. The ideal pass rewrote nothing, so the preservation claim is trivial.
-/
import proofs.«142533_j54082228191620_2_alg».proof.Defs
import proofs.«142533_j54082228191620_2_alg».proof.Proof.Gen.Kernel
import proofs.«142533_j54082228191620_2_alg».proof.Proof.Gen.Kernel.Frame
import proofs.«142533_j54082228191620_2_alg».proof.Proof.Gen.KernelIdeal
import proofs.«142533_j54082228191620_2_alg».proof.Proof.Gen.KernelIdeal.Frame
import proofs.«142533_j54082228191620_2_alg».proof.Proof.Gen.ReferenceIdeal
import proofs.«142533_j54082228191620_2_alg».proof.Proof.Gen.ReferenceIdeal.Run
import proofs.«142533_j54082228191620_2_alg».proof.Proof.Gen.Pre_finite_inputs
import proofs.«142533_j54082228191620_2_alg».proof.Proof.KernelValue
import proofs.«142533_j54082228191620_2_alg».proof.Proof.RefLoss
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the triplet loss of the two argument tables, and the tables agree. -/
theorem algebraic : Cert.algebraic_KernelIdeal_ReferenceIdeal := by
  intro m ρ m' ρ' _ hagree
  refine ⟨fun c _ => Cert.TripletSpec.loss (Cert.KernelIdeal.RunValue.tabA m c) (Cert.KernelIdeal.RunValue.tabP m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq]
  funext i
  rw [Cert.ReferenceIdeal.RefValue.ref_loss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
